-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v73)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v73) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v103) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1200000 : Shape := ⟨2, ![2, 1200000]⟩
abbrev S100000 : Shape := ⟨1, ![100000]⟩
abbrev S64x128 : Shape := ⟨2, ![64, 128]⟩
abbrev S128 : Shape := ⟨1, ![128]⟩
abbrev S128x16 : Shape := ⟨2, ![128, 16]⟩
abbrev S16 : Shape := ⟨1, ![16]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S128x16 : S_.BroadcastsInDim S128x16 (![] : Fin 0 → Fin S128x16.rank)
  reducesTo_S128x16_S_d0_1 : S128x16.ReducesTo [0, 1] S_
  bcast_S_S16 : S_.BroadcastsInDim S16 (![] : Fin 0 → Fin S16.rank)
  reducesTo_S16_S_d0 : S16.ReducesTo [0] S_

variable [Facts]

def fn_part1 {F : FTy → Type} [FloatOps F] (main_arg6 : FVec F S16 .f32) (main_v13 : IVec S_ 1) (main_v16 : IVec S128x16 1) : IVec S_ 1 :=
  let main_c_5 : IVec S_ 1 := constantI S_ 1 1#1
  let main_v17 : IVec S_ 1 := (fun x v => Host.reduce IntOp.andi x v reducesTo_S128x16_S_d0_1 h_S_) main_v16 main_c_5
  let main_v18 : IVec S_ 1 := andi main_v13 main_v17
  let main_v19 : FVec F S16 .f32 := Host.absf main_arg6
  let main_cst_6 : FVec F S_ .f32 := constant S_ .f32 0x7F800000#32
  let main_v20 : FVec F S16 .f32 := broadcastInDim S16 ![] bcast_S_S16 main_cst_6
  let main_v21 : IVec S16 1 := cmpf .olt main_v19 main_v20
  let main_c_7 : IVec S_ 1 := constantI S_ 1 1#1
  let main_v22 : IVec S_ 1 := (fun x v => Host.reduce IntOp.andi x v reducesTo_S16_S_d0 h_S_) main_v21 main_c_7
  let main_v23 : IVec S_ 1 := andi main_v18 main_v22
  main_v23

def fn {F : FTy → Type} [FloatOps F] (main_arg0 : FVec F S100000x64 .f32) (main_arg1 : IVec S2x1200000 32) (main_arg2 : IVec S100000 32) (main_arg3 : FVec F S64x128 .f32) (main_arg4 : FVec F S128 .f32) (main_arg5 : FVec F S128x16 .f32) (main_arg6 : FVec F S16 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x128 .f32 := Host.absf main_arg3
  let main_cst_0 : FVec F S_ .f32 := constant S_ .f32 0x7F800000#32
  let main_v5 : FVec F S64x128 .f32 := broadcastInDim S64x128 ![] bcast_S_S64x128 main_cst_0
  let main_v6 : IVec S64x128 1 := cmpf .olt main_v4 main_v5
  let main_c_1 : IVec S_ 1 := constantI S_ 1 1#1
  let main_v7 : IVec S_ 1 := (fun x v => Host.reduce IntOp.andi x v reducesTo_S64x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x16 .f32 := Host.absf main_arg5
  let main_cst_4 : FVec F S_ .f32 := constant S_ .f32 0x7F800000#32
  let main_v15 : FVec F S128x16 .f32 := broadcastInDim S128x16 ![] bcast_S_S128x16 main_cst_4
  let main_v16 : IVec S128x16 1 := cmpf .olt main_v14 main_v15
  fn_part1 (F := F) main_arg6 main_v13 main_v16
-- ==== Kernel.lean ====
abbrev S100000x64 : Shape := ⟨2, ![100000, 64]⟩
abbrev S2x1200000 : Shape := ⟨2, ![2, 1200000]⟩
abbrev S100000 : Shape := ⟨1, ![100000]⟩
abbrev S64x128 : Shape := ⟨2, ![64, 128]⟩
abbrev S128 : Shape := ⟨1, ![128]⟩
abbrev S128x16 : Shape := ⟨2, ![128, 16]⟩
abbrev S16 : Shape := ⟨1, ![16]⟩
abbrev S1x1200000 : Shape := ⟨2, ![1, 1200000]⟩
abbrev S1200000 : Shape := ⟨1, ![1200000]⟩
abbrev S1300000 : Shape := ⟨1, ![1300000]⟩
abbrev S_ : Shape := ⟨0, ![]⟩
abbrev S1300000x1 : Shape := ⟨2, ![1300000, 1]⟩
abbrev S100000x128 : Shape := ⟨2, ![100000, 128]⟩
abbrev S5000x64 : Shape := ⟨2, ![5000, 64]⟩
abbrev S5000x128 : Shape := ⟨2, ![5000, 128]⟩
abbrev S1300000x128 : Shape := ⟨2, ![1300000, 128]⟩
abbrev S1x128 : Shape := ⟨2, ![1, 128]⟩
abbrev S100000x16 : Shape := ⟨2, ![100000, 16]⟩
abbrev S5000x16 : Shape := ⟨2, ![5000, 16]⟩
abbrev S1300000x16 : Shape := ⟨2, ![1300000, 16]⟩
abbrev S1x16 : Shape := ⟨2, ![1, 16]⟩
abbrev S100000x1 : Shape := ⟨2, ![100000, 1]⟩
abbrev S128x1 : Shape := ⟨2, ![128, 1]⟩

abbrev nBuf : Space → Nat
  | .hbm => 114
  | .vmem => 20
  | .smem => 0
  | _ => 0

abbrev bufTy : (tb : Table) → Fin (tcTables nBuf tb) → BufTy
  | .hbm, ⟨0, _⟩ => ⟨S100000x64, .f32⟩
  | .hbm, ⟨1, _⟩ => ⟨S2x1200000, .i32⟩
  | .hbm, ⟨2, _⟩ => ⟨S100000, .i32⟩
  | .hbm, ⟨3, _⟩ => ⟨S64x128, .f32⟩
  | .hbm, ⟨4, _⟩ => ⟨S128, .f32⟩
  | .hbm, ⟨5, _⟩ => ⟨S128x16, .f32⟩
  | .hbm, ⟨6, _⟩ => ⟨S16, .f32⟩
  | .hbm, ⟨7, _⟩ => ⟨S1x1200000, .i32⟩
  | .hbm, ⟨8, _⟩ => ⟨S1200000, .i32⟩
  | .hbm, ⟨9, _⟩ => ⟨S1x1200000, .i32⟩
  | .hbm, ⟨10, _⟩ => ⟨S1200000, .i32⟩
  | .hbm, ⟨11, _⟩ => ⟨S100000, .i32⟩
  | .hbm, ⟨12, _⟩ => ⟨S1300000, .i32⟩
  | .hbm, ⟨13, _⟩ => ⟨S1300000, .i32⟩
  | .hbm, ⟨14, _⟩ => ⟨S_, .f32⟩
  | .hbm, ⟨15, _⟩ => ⟨S1300000, .f32⟩
  | .hbm, ⟨16, _⟩ => ⟨S_, .f32⟩
  | .hbm, ⟨17, _⟩ => ⟨S100000, .f32⟩
  | .hbm, ⟨18, _⟩ => ⟨S1300000x1, .i32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .i1⟩
  | .hbm, ⟨23, _⟩ => ⟨S100000, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S1300000, .i32⟩
  | .hbm, ⟨29, _⟩ => ⟨S1300000, .i1⟩
  | .hbm, ⟨30, _⟩ => ⟨S_, .i32⟩
  | .hbm, ⟨31, _⟩ => ⟨S1300000, .i32⟩
  | .hbm, ⟨32, _⟩ => ⟨S1300000, .i32⟩
  | .hbm, ⟨33, _⟩ => ⟨S1300000, .i32⟩
  | .hbm, ⟨34, _⟩ => ⟨S1300000x1, .i32⟩
  | .hbm, ⟨35, _⟩ => ⟨S1300000, .f32⟩
  | .hbm, ⟨36, _⟩ => ⟨S_, .i32⟩
  | .hbm, ⟨37, _⟩ => ⟨S1300000, .i32⟩
  | .hbm, ⟨38, _⟩ => ⟨S1300000, .i1⟩
  | .hbm, ⟨39, _⟩ => ⟨S_, .i32⟩
  | .hbm, ⟨40, _⟩ => ⟨S1300000, .i32⟩
  | .hbm, ⟨41, _⟩ => ⟨S1300000, .i32⟩
  | .hbm, ⟨42, _⟩ => ⟨S1300000, .i32⟩
  | .hbm, ⟨43, _⟩ => ⟨S1300000x1, .i32⟩
  | .hbm, ⟨44, _⟩ => ⟨S1300000, .f32⟩
  | .hbm, ⟨45, _⟩ => ⟨S1300000, .f32⟩
  | .hbm, ⟨46, _⟩ => ⟨S1300000x1, .f32⟩
  | .hbm, ⟨47, _⟩ => ⟨S100000x128, .f32⟩
  | .hbm, ⟨48, _⟩ => ⟨S_, .i32⟩
  | .hbm, ⟨49, _⟩ => ⟨S1300000, .i32⟩
  | .hbm, ⟨50, _⟩ => ⟨S1300000, .i1⟩
  | .hbm, ⟨51, _⟩ => ⟨S_, .i32⟩
  | .hbm, ⟨52, _⟩ => ⟨S1300000, .i32⟩
  | .hbm, ⟨53, _⟩ => ⟨S1300000, .i32⟩
  | .hbm, ⟨54, _⟩ => ⟨S1300000, .i32⟩
  | .hbm, ⟨55, _⟩ => ⟨S1300000x1, .i32⟩
  | .hbm, ⟨56, _⟩ => ⟨S1300000x128, .f32⟩
  | .hbm, ⟨57, _⟩ => ⟨S1300000x128, .f32⟩
  | .hbm, ⟨58, _⟩ => ⟨S1300000x128, .f32⟩
  | .hbm, ⟨59, _⟩ => ⟨S_, .f32⟩
  | .hbm, ⟨60, _⟩ => ⟨S100000x128, .f32⟩
  | .hbm, ⟨61, _⟩ => ⟨S1300000x1, .i32⟩
  | .hbm, ⟨62, _⟩ => ⟨S100000x128, .f32⟩
  | .hbm, ⟨63, _⟩ => ⟨S1x128, .f32⟩
  | .hbm, ⟨64, _⟩ => ⟨S100000x128, .f32⟩
  | .hbm, ⟨65, _⟩ => ⟨S100000x16, .f32⟩
  | .hbm, ⟨66, _⟩ => ⟨S_, .i32⟩
  | .hbm, ⟨67, _⟩ => ⟨S1300000, .i32⟩
  | .hbm, ⟨68, _⟩ => ⟨S1300000, .i1⟩
  | .hbm, ⟨69, _⟩ => ⟨S_, .i32⟩
  | .hbm, ⟨70, _⟩ => ⟨S1300000, .i32⟩
  | .hbm, ⟨71, _⟩ => ⟨S1300000, .i32⟩
  | .hbm, ⟨72, _⟩ => ⟨S1300000, .i32⟩
  | .hbm, ⟨73, _⟩ => ⟨S1300000x1, .i32⟩
  | .hbm, ⟨74, _⟩ => ⟨S1300000x16, .f32⟩
  | .hbm, ⟨75, _⟩ => ⟨S1300000x16, .f32⟩
  | .hbm, ⟨76, _⟩ => ⟨S1300000x16, .f32⟩
  | .hbm, ⟨77, _⟩ => ⟨S_, .f32⟩
  | .hbm, ⟨78, _⟩ => ⟨S100000x16, .f32⟩
  | .hbm, ⟨79, _⟩ => ⟨S1300000x1, .i32⟩
  | .hbm, ⟨80, _⟩ => ⟨S100000x16, .f32⟩
  | .hbm, ⟨81, _⟩ => ⟨S1x16, .f32⟩
  | .hbm, ⟨82, _⟩ => ⟨S100000x16, .f32⟩
  | .hbm, ⟨83, _⟩ => ⟨S_, .f32⟩
  | .hbm, ⟨84, _⟩ => ⟨S128x16, .f32⟩
  | .hbm, ⟨85, _⟩ => ⟨S100000x1, .i32⟩
  | .hbm, ⟨86, _⟩ => ⟨S128x16, .f32⟩
  | .hbm, ⟨87, _⟩ => ⟨S_, .f32⟩
  | .hbm, ⟨88, _⟩ => ⟨S100000, .f32⟩
  | .hbm, ⟨89, _⟩ => ⟨S_, .f32⟩
  | .hbm, ⟨90, _⟩ => ⟨S128, .f32⟩
  | .hbm, ⟨91, _⟩ => ⟨S100000x1, .i32⟩
  | .hbm, ⟨92, _⟩ => ⟨S128, .f32⟩
  | .hbm, ⟨93, _⟩ => ⟨S_, .f32⟩
  | .hbm, ⟨94, _⟩ => ⟨S128, .f32⟩
  | .hbm, ⟨95, _⟩ => ⟨S128, .f32⟩
  | .hbm, ⟨96, _⟩ => ⟨S128x1, .f32⟩
  | .hbm, ⟨97, _⟩ => ⟨S128x16, .f32⟩
  | .hbm, ⟨98, _⟩ => ⟨S128x16, .f32⟩
  | .hbm, ⟨99, _⟩ => ⟨S_, .f32⟩
  | .hbm, ⟨100, _⟩ => ⟨S128, .f32⟩
  | .hbm, ⟨101, _⟩ => ⟨S_, .f32⟩
  | .hbm, ⟨102, _⟩ => ⟨S128, .f32⟩
  | .hbm, ⟨103, _⟩ => ⟨S128, .f32⟩
  | .hbm, ⟨104, _⟩ => ⟨S128x1, .f32⟩
  | .hbm, ⟨105, _⟩ => ⟨S128x16, .f32⟩
  | .hbm, ⟨106, _⟩ => ⟨S128x16, .f32⟩
  | .hbm, ⟨107, _⟩ => ⟨S128x16, .f32⟩
  | .hbm, ⟨108, _⟩ => ⟨S_, .f32⟩
  | .hbm, ⟨109, _⟩ => ⟨S128, .f32⟩
  | .hbm, ⟨110, _⟩ => ⟨S128x1, .f32⟩
  | .hbm, ⟨111, _⟩ => ⟨S128x1, .f32⟩
  | .hbm, ⟨112, _⟩ => ⟨S128x16, .f32⟩
  | .hbm, ⟨113, _⟩ => ⟨S128x16, .f32⟩
  | .local _ .vmem, ⟨0, _⟩ => ⟨S5000x64, .f32⟩
  | .local _ .vmem, ⟨1, _⟩ => ⟨S5000x64, .f32⟩
  | .local _ .vmem, ⟨2, _⟩ => ⟨S64x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S128x16, .f32⟩
  | .local _ .vmem, ⟨13, _⟩ => ⟨S5000x16, .f32⟩
  | .local _ .vmem, ⟨14, _⟩ => ⟨S5000x16, .f32⟩
  | .local _ .vmem, ⟨15, _⟩ => ⟨S5000x16, .f32⟩
  | .local _ .vmem, ⟨16, _⟩ => ⟨S5000x16, .f32⟩
  | .local _ .vmem, ⟨17, _⟩ => ⟨S1x16, .f32⟩
  | .local _ .vmem, ⟨18, _⟩ => ⟨S5000x16, .f32⟩
  | .local _ .vmem, ⟨19, _⟩ => ⟨S5000x16, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_call0_v0 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_c_6 : Ref sig .tc := ⟨.hbm, 48, rfl⟩
abbrev main_v32 : Ref sig .tc := ⟨.hbm, 49, rfl⟩
abbrev main_v33 : Ref sig .tc := ⟨.hbm, 50, rfl⟩
abbrev main_c_7 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_c_9 : Ref sig .tc := ⟨.hbm, 66, rfl⟩
abbrev main_v47 : Ref sig .tc := ⟨.hbm, 67, rfl⟩
abbrev main_v48 : Ref sig .tc := ⟨.hbm, 68, rfl⟩
abbrev main_c_10 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_cst_11 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_cst_12 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_cst_13 : Ref sig .tc := ⟨.hbm, 87, rfl⟩
abbrev main_v64 : Ref sig .tc := ⟨.hbm, 88, rfl⟩
abbrev main_cst_14 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_cst_15 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_call1_cst : Ref sig .tc := ⟨.hbm, 99, rfl⟩
abbrev main_call1_v0 : Ref sig .tc := ⟨.hbm, 100, rfl⟩
abbrev main_call1_cst_0 : Ref sig .tc := ⟨.hbm, 101, rfl⟩
abbrev main_call1_v1 : Ref sig .tc := ⟨.hbm, 102, rfl⟩
abbrev main_call1_v2 : Ref sig .tc := ⟨.hbm, 103, rfl⟩
abbrev main_call1_v3 : Ref sig .tc := ⟨.hbm, 104, rfl⟩
abbrev main_call1_v4 : Ref sig .tc := ⟨.hbm, 105, rfl⟩
abbrev main_call1_v5 : Ref sig .tc := ⟨.hbm, 106, rfl⟩
abbrev main_call1_v6 : Ref sig .tc := ⟨.hbm, 107, rfl⟩
abbrev main_call1_cst_1 : Ref sig .tc := ⟨.hbm, 108, rfl⟩
abbrev main_call1_v7 : Ref sig .tc := ⟨.hbm, 109, rfl⟩
abbrev main_call1_v8 : Ref sig .tc := ⟨.hbm, 110, rfl⟩
abbrev main_call1_v9 : Ref sig .tc := ⟨.hbm, 111, rfl⟩
abbrev main_call1_v10 : Ref sig .tc := ⟨.hbm, 112, rfl⟩
abbrev main_v73 : Ref sig .tc := ⟨.hbm, 113, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x16 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x16 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x16 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x16 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x16 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x1200000_S1x1200000_0_0 : S2x1200000.Slices ![0, 0] S1x1200000
  shapeCasts_S1x1200000_S1200000 : S1x1200000.ShapeCasts S1200000
  slices_S2x1200000_S1x1200000_1_0 : S2x1200000.Slices ![1, 0] S1x1200000
  concatenates_S1200000_S100000_S1300000_d0 : Shape.Concatenates [S1200000, S100000] S1300000 0
  bcast_S_S1300000 : S_.BroadcastsInDim S1300000 (![] : Fin 0 → Fin S1300000.rank)
  bcast_S_S100000 : S_.BroadcastsInDim S100000 (![] : Fin 0 → Fin S100000.rank)
  bcast_S1300000_S1300000x1_0 : S1300000.BroadcastsInDim S1300000x1 (![0] : Fin 1 → Fin S1300000x1.rank)
  inb_S5000x64_S5000x64_0_0 : ∀ a, (![0, 0] : Fin 2 → Nat) a + S5000x64.size a ≤ S5000x64.size a
  h_S5000x64 : 0 < S5000x64.numel
  bitsLt_bf16_f32 : FTy.bits .bf16 < FTy.bits .f32
  inb_S64x128_S64x128_0_0 : ∀ a, (![0, 0] : Fin 2 → Nat) a + S64x128.size a ≤ S64x128.size a
  h_S64x128 : 0 < S64x128.numel
  inb_S5000x128_S5000x128_0_0 : ∀ a, (![0, 0] : Fin 2 → Nat) a + S5000x128.size a ≤ S5000x128.size a
  h_S5000x128 : 0 < S5000x128.numel
  bcast_S1300000x1_S1300000x128_0_1 : S1300000x1.BroadcastsInDim S1300000x128 (![0, 1] : Fin 2 → Fin S1300000x128.rank)
  bcast_S_S100000x128 : S_.BroadcastsInDim S100000x128 (![] : Fin 0 → Fin S100000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x16_S128x16_0_0 : ∀ a, (![0, 0] : Fin 2 → Nat) a + S128x16.size a ≤ S128x16.size a
  h_S128x16 : 0 < S128x16.numel
  inb_S5000x16_S5000x16_0_0 : ∀ a, (![0, 0] : Fin 2 → Nat) a + S5000x16.size a ≤ S5000x16.size a
  h_S5000x16 : 0 < S5000x16.numel
  bcast_S1300000x1_S1300000x16_0_1 : S1300000x1.BroadcastsInDim S1300000x16 (![0, 1] : Fin 2 → Fin S1300000x16.rank)
  bcast_S_S100000x16 : S_.BroadcastsInDim S100000x16 (![] : Fin 0 → Fin S100000x16.rank)
  shapeCasts_S16_S1x16 : S16.ShapeCasts S1x16
  shapeCasts_S5000x16_S5000x16 : S5000x16.ShapeCasts S5000x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S5000x16 : S1x16.Broadcasts S5000x16
  bcast_S_S128x16 : S_.BroadcastsInDim S128x16 (![] : Fin 0 → Fin S128x16.rank)
  bcast_S100000_S100000x1_0 : S100000.BroadcastsInDim S100000x1 (![0] : Fin 1 → Fin S100000x1.rank)
  bcast_S_S128 : S_.BroadcastsInDim S128 (![] : Fin 0 → Fin S128.rank)
  bcast_S128_S128x1_0 : S128.BroadcastsInDim S128x1 (![0] : Fin 1 → Fin S128x1.rank)
  bcast_S128x1_S128x16_0_1 : S128x1.BroadcastsInDim S128x16 (![0, 1] : Fin 2 → Fin S128x16.rank)
  reducesTo_S128x16_S128_d1 : S128x16.ReducesTo [1] S128
  h_S_ : 0 < S_.numel
  scatter_S100000_S1300000x1_S1300000_n_0_0_1_wf : ScatterDims.WF S100000 S1300000x1 S1300000 [] [0] [0] 1
  gather_S100000_S1300000x1_S1300000_n_0_n_n_0_1_1_wf : GatherDims.WF S100000 S1300000x1 S1300000 [] [0] [] [0] [] 1 ![1]
  dot_S5000x64_S64x128_S5000x128_1_0_0_1_n_n_wf : DotDims.WF S5000x64 S64x128 S5000x128 [1] [0] [0] [1] [] []
  gather_S100000x128_S1300000x1_S1300000x128_1_0_n_n_0_1_1128_wf : GatherDims.WF S100000x128 S1300000x1 S1300000x128 [1] [0] [] [0] [] 1 ![1, 128]
  scatter_S100000x128_S1300000x1_S1300000x128_1_0_0_1_wf : ScatterDims.WF S100000x128 S1300000x1 S1300000x128 [1] [0] [0] 1
  dot_S5000x128_S128x16_S5000x16_1_0_0_1_n_n_wf : DotDims.WF S5000x128 S128x16 S5000x16 [1] [0] [0] [1] [] []
  gather_S100000x16_S1300000x1_S1300000x16_1_0_n_n_0_1_116_wf : GatherDims.WF S100000x16 S1300000x1 S1300000x16 [1] [0] [] [0] [] 1 ![1, 16]
  scatter_S100000x16_S1300000x1_S1300000x16_1_0_0_1_wf : ScatterDims.WF S100000x16 S1300000x1 S1300000x16 [1] [0] [0] 1
  scatter_S128x16_S100000x1_S100000x16_1_0_0_1_wf : ScatterDims.WF S128x16 S100000x1 S100000x16 [1] [0] [0] 1
  scatter_S128_S100000x1_S100000_n_0_0_1_wf : ScatterDims.WF S128 S100000x1 S100000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x128.size a ≤ S64x128.size a
  hwx0_1 : ∀ i : grid0.Coords, EltTy.bits .f32 = 32 ∨ (Rect.block (s := S64x128) S64x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S100000x128.size a
  hwx1_2 : ∀ i : grid1.Coords, EltTy.bits .f32 = 32 ∨ (Rect.block (s := S100000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x16.size a ≤ S128x16.size a
  hwx2_1 : ∀ i : grid2.Coords, EltTy.bits .f32 = 32 ∨ (Rect.block (s := S128x16) S128x16.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x16.size a ≤ S100000x16.size a
  hwx2_2 : ∀ i : grid2.Coords, EltTy.bits .f32 = 32 ∨ (Rect.block (s := S100000x16) S5000x16.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x16.size a ≤ S100000x16.size a
  hwx3_0 : ∀ i : grid3.Coords, EltTy.bits .f32 = 32 ∨ (Rect.block (s := S100000x16) S5000x16.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x16.size a ≤ S1x16.size a
  hwx3_1 : ∀ i : grid3.Coords, EltTy.bits .f32 = 32 ∨ (Rect.block (s := S1x16) S1x16.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x16.size a ≤ S100000x16.size a
  hwx3_2 : ∀ i : grid3.Coords, EltTy.bits .f32 = 32 ∨ (Rect.block (s := S100000x16) S5000x16.size (cc3_transform_2 i) (hinb3_2 i)).WholeWords (EltTy.packing .f32)

variable [Facts₀]

def scatter_S100000_S1300000x1_S1300000_n_0_0_1 : ScatterDims S100000 S1300000x1 S1300000 where
  updateWindowDims := []
  insertedWindowDims := [0]
  scatterDimsToOperandDims := [0]
  indexVectorDim := 1
  wf := scatter_S100000_S1300000x1_S1300000_n_0_0_1_wf
def gather_S100000_S1300000x1_S1300000_n_0_n_n_0_1_1 : GatherDims S100000 S1300000x1 S1300000 where
  offsetDims := []
  collapsedSliceDims := [0]
  operandBatchingDims := []
  startIndicesBatchingDims := []
  startIndexMap := [0]
  indexVectorDim := 1
  sliceSizes := ![1]
  wf := gather_S100000_S1300000x1_S1300000_n_0_n_n_0_1_1_wf
def dot_S5000x64_S64x128_S5000x128_1_0_0_1_n_n : DotDims S5000x64 S64x128 S5000x128 where
  lhsContracting := [1]
  rhsContracting := [0]
  lhsNonContracting := [0]
  rhsNonContracting := [1]
  lhsBatch := []
  rhsBatch := []
  wf := dot_S5000x64_S64x128_S5000x128_1_0_0_1_n_n_wf
def gather_S100000x128_S1300000x1_S1300000x128_1_0_n_n_0_1_1128 : GatherDims S100000x128 S1300000x1 S1300000x128 where
  offsetDims := [1]
  collapsedSliceDims := [0]
  operandBatchingDims := []
  startIndicesBatchingDims := []
  startIndexMap := [0]
  indexVectorDim := 1
  sliceSizes := ![1, 128]
  wf := gather_S100000x128_S1300000x1_S1300000x128_1_0_n_n_0_1_1128_wf
def scatter_S100000x128_S1300000x1_S1300000x128_1_0_0_1 : ScatterDims S100000x128 S1300000x1 S1300000x128 where
  updateWindowDims := [1]
  insertedWindowDims := [0]
  scatterDimsToOperandDims := [0]
  indexVectorDim := 1
  wf := scatter_S100000x128_S1300000x1_S1300000x128_1_0_0_1_wf
def dot_S5000x128_S128x16_S5000x16_1_0_0_1_n_n : DotDims S5000x128 S128x16 S5000x16 where
  lhsContracting := [1]
  rhsContracting := [0]
  lhsNonContracting := [0]
  rhsNonContracting := [1]
  lhsBatch := []
  rhsBatch := []
  wf := dot_S5000x128_S128x16_S5000x16_1_0_0_1_n_n_wf
def gather_S100000x16_S1300000x1_S1300000x16_1_0_n_n_0_1_116 : GatherDims S100000x16 S1300000x1 S1300000x16 where
  offsetDims := [1]
  collapsedSliceDims := [0]
  operandBatchingDims := []
  startIndicesBatchingDims := []
  startIndexMap := [0]
  indexVectorDim := 1
  sliceSizes := ![1, 16]
  wf := gather_S100000x16_S1300000x1_S1300000x16_1_0_n_n_0_1_116_wf
def scatter_S100000x16_S1300000x1_S1300000x16_1_0_0_1 : ScatterDims S100000x16 S1300000x1 S1300000x16 where
  updateWindowDims := [1]
  insertedWindowDims := [0]
  scatterDimsToOperandDims := [0]
  indexVectorDim := 1
  wf := scatter_S100000x16_S1300000x1_S1300000x16_1_0_0_1_wf
def scatter_S128x16_S100000x1_S100000x16_1_0_0_1 : ScatterDims S128x16 S100000x1 S100000x16 where
  updateWindowDims := [1]
  insertedWindowDims := [0]
  scatterDimsToOperandDims := [0]
  indexVectorDim := 1
  wf := scatter_S128x16_S100000x1_S100000x16_1_0_0_1_wf
def scatter_S128_S100000x1_S100000_n_0_0_1 : ScatterDims S128 S100000x1 S100000 where
  updateWindowDims := []
  insertedWindowDims := [0]
  scatterDimsToOperandDims := [0]
  indexVectorDim := 1
  wf := scatter_S128_S100000x1_S100000_n_0_0_1_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S64x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v31) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v45) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S128x16.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v46) S5000x16.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v58) S5000x16.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v59) S1x16.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v60) S5000x16.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S100000x64 : Shape := ⟨2, ![100000, 64]⟩
abbrev S2x1200000 : Shape := ⟨2, ![2, 1200000]⟩
abbrev S100000 : Shape := ⟨1, ![100000]⟩
abbrev S64x128 : Shape := ⟨2, ![64, 128]⟩
abbrev S128 : Shape := ⟨1, ![128]⟩
abbrev S128x16 : Shape := ⟨2, ![128, 16]⟩
abbrev S16 : Shape := ⟨1, ![16]⟩
abbrev S1x1200000 : Shape := ⟨2, ![1, 1200000]⟩
abbrev S1200000 : Shape := ⟨1, ![1200000]⟩
abbrev S100000x128 : Shape := ⟨2, ![100000, 128]⟩
abbrev S1300000 : Shape := ⟨1, ![1300000]⟩
abbrev S_ : Shape := ⟨0, ![]⟩
abbrev S1300000x1 : Shape := ⟨2, ![1300000, 1]⟩
abbrev S1300000x128 : Shape := ⟨2, ![1300000, 128]⟩
abbrev S1x128 : Shape := ⟨2, ![1, 128]⟩
abbrev S100000x16 : Shape := ⟨2, ![100000, 16]⟩
abbrev S1300000x16 : Shape := ⟨2, ![1300000, 16]⟩
abbrev S1x16 : Shape := ⟨2, ![1, 16]⟩
abbrev S100000x1 : Shape := ⟨2, ![100000, 1]⟩
abbrev S128x1 : Shape := ⟨2, ![128, 1]⟩

abbrev nBuf : Space → Nat
  | .hbm => 155
  | .vmem => 0
  | .smem => 0
  | _ => 0

abbrev hbmTy0_0 (i : Nat) : BufTy := match i % 128 with
  | 0 => ⟨S100000x64, .f32⟩
  | 1 => ⟨S2x1200000, .i32⟩
  | 2 => ⟨S100000, .i32⟩
  | 3 => ⟨S64x128, .f32⟩
  | 4 => ⟨S128, .f32⟩
  | 5 => ⟨S128x16, .f32⟩
  | 6 => ⟨S16, .f32⟩
  | 7 => ⟨S1x1200000, .i32⟩
  | 8 => ⟨S1200000, .i32⟩
  | 9 => ⟨S1x1200000, .i32⟩
  | 10 => ⟨S1200000, .i32⟩
  | 11 => ⟨S100000x128, .f32⟩
  | 12 => ⟨S100000, .i32⟩
  | 13 => ⟨S1300000, .i32⟩
  | 14 => ⟨S1300000, .i32⟩
  | 15 => ⟨S_, .f32⟩
  | 16 => ⟨S1300000, .f32⟩
  | 17 => ⟨S_, .f32⟩
  | 18 => ⟨S100000, .f32⟩
  | 19 => ⟨S1300000x1, .i32⟩
  | 20 => ⟨S100000, .f32⟩
  | 21 => ⟨S_, .f32⟩
  | 22 => ⟨S100000, .f32⟩
  | 23 => ⟨S100000, .i1⟩
  | 24 => ⟨S100000, .f32⟩
  | 25 => ⟨S_, .f32⟩
  | 26 => ⟨S100000, .f32⟩
  | 27 => ⟨S100000, .f32⟩
  | 28 => ⟨S_, .i32⟩
  | 29 => ⟨S1300000, .i32⟩
  | 30 => ⟨S1300000, .i1⟩
  | 31 => ⟨S_, .i32⟩
  | 32 => ⟨S1300000, .i32⟩
  | 33 => ⟨S1300000, .i32⟩
  | 34 => ⟨S1300000, .i32⟩
  | 35 => ⟨S1300000x1, .i32⟩
  | 36 => ⟨S1300000, .f32⟩
  | 37 => ⟨S_, .i32⟩
  | 38 => ⟨S1300000, .i32⟩
  | 39 => ⟨S1300000, .i1⟩
  | 40 => ⟨S_, .i32⟩
  | 41 => ⟨S1300000, .i32⟩
  | 42 => ⟨S1300000, .i32⟩
  | 43 => ⟨S1300000, .i32⟩
  | 44 => ⟨S1300000x1, .i32⟩
  | 45 => ⟨S1300000, .f32⟩
  | 46 => ⟨S1300000, .f32⟩
  | 47 => ⟨S_, .i32⟩
  | 48 => ⟨S1300000, .i32⟩
  | 49 => ⟨S1300000, .i1⟩
  | 50 => ⟨S_, .i32⟩
  | 51 => ⟨S1300000, .i32⟩
  | 52 => ⟨S1300000, .i32⟩
  | 53 => ⟨S1300000, .i32⟩
  | 54 => ⟨S1300000x1, .i32⟩
  | 55 => ⟨S1300000x128, .f32⟩
  | 56 => ⟨S1300000x1, .f32⟩
  | 57 => ⟨S1300000x128, .f32⟩
  | 58 => ⟨S1300000x128, .f32⟩
  | 59 => ⟨S_, .f32⟩
  | 60 => ⟨S100000x128, .f32⟩
  | 61 => ⟨S1300000x1, .i32⟩
  | 62 => ⟨S100000x128, .f32⟩
  | 63 => ⟨S1x128, .f32⟩
  | 64 => ⟨S100000x128, .f32⟩
  | 65 => ⟨S100000x128, .f32⟩
  | 66 => ⟨S_, .f32⟩
  | 67 => ⟨S100000x128, .f32⟩
  | 68 => ⟨S100000x128, .f32⟩
  | 69 => ⟨S100000x16, .f32⟩
  | 70 => ⟨S100000, .i32⟩
  | 71 => ⟨S1300000, .i32⟩
  | 72 => ⟨S1300000, .i32⟩
  | 73 => ⟨S_, .f32⟩
  | 74 => ⟨S1300000, .f32⟩
  | 75 => ⟨S_, .f32⟩
  | 76 => ⟨S100000, .f32⟩
  | 77 => ⟨S1300000x1, .i32⟩
  | 78 => ⟨S100000, .f32⟩
  | 79 => ⟨S_, .f32⟩
  | 80 => ⟨S100000, .f32⟩
  | 81 => ⟨S100000, .i1⟩
  | 82 => ⟨S100000, .f32⟩
  | 83 => ⟨S_, .f32⟩
  | 84 => ⟨S100000, .f32⟩
  | 85 => ⟨S100000, .f32⟩
  | 86 => ⟨S_, .i32⟩
  | 87 => ⟨S1300000, .i32⟩
  | 88 => ⟨S1300000, .i1⟩
  | 89 => ⟨S_, .i32⟩
  | 90 => ⟨S1300000, .i32⟩
  | 91 => ⟨S1300000, .i32⟩
  | 92 => ⟨S1300000, .i32⟩
  | 93 => ⟨S1300000x1, .i32⟩
  | 94 => ⟨S1300000, .f32⟩
  | 95 => ⟨S_, .i32⟩
  | 96 => ⟨S1300000, .i32⟩
  | 97 => ⟨S1300000, .i1⟩
  | 98 => ⟨S_, .i32⟩
  | 99 => ⟨S1300000, .i32⟩
  | 100 => ⟨S1300000, .i32⟩
  | 101 => ⟨S1300000, .i32⟩
  | 102 => ⟨S1300000x1, .i32⟩
  | 103 => ⟨S1300000, .f32⟩
  | 104 => ⟨S1300000, .f32⟩
  | 105 => ⟨S_, .i32⟩
  | 106 => ⟨S1300000, .i32⟩
  | 107 => ⟨S1300000, .i1⟩
  | 108 => ⟨S_, .i32⟩
  | 109 => ⟨S1300000, .i32⟩
  | 110 => ⟨S1300000, .i32⟩
  | 111 => ⟨S1300000, .i32⟩
  | 112 => ⟨S1300000x1, .i32⟩
  | 113 => ⟨S1300000x16, .f32⟩
  | 114 => ⟨S1300000x1, .f32⟩
  | 115 => ⟨S1300000x16, .f32⟩
  | 116 => ⟨S1300000x16, .f32⟩
  | 117 => ⟨S_, .f32⟩
  | 118 => ⟨S100000x16, .f32⟩
  | 119 => ⟨S1300000x1, .i32⟩
  | 120 => ⟨S100000x16, .f32⟩
  | 121 => ⟨S1x16, .f32⟩
  | 122 => ⟨S100000x16, .f32⟩
  | 123 => ⟨S100000x16, .f32⟩
  | 124 => ⟨S_, .f32⟩
  | 125 => ⟨S128x16, .f32⟩
  | 126 => ⟨S100000x1, .i32⟩
  | 127 => ⟨S128x16, .f32⟩
  | _ => ⟨S100000x64, .f32⟩

abbrev hbmTy0_1 (i : Nat) : BufTy := match i % 128 with
  | 0 => ⟨S_, .f32⟩
  | 1 => ⟨S100000, .f32⟩
  | 2 => ⟨S_, .f32⟩
  | 3 => ⟨S128, .f32⟩
  | 4 => ⟨S100000x1, .i32⟩
  | 5 => ⟨S128, .f32⟩
  | 6 => ⟨S_, .f32⟩
  | 7 => ⟨S128, .f32⟩
  | 8 => ⟨S128, .f32⟩
  | 9 => ⟨S128x1, .f32⟩
  | 10 => ⟨S128x16, .f32⟩
  | 11 => ⟨S128x16, .f32⟩
  | 12 => ⟨S_, .f32⟩
  | 13 => ⟨S128, .f32⟩
  | 14 => ⟨S_, .f32⟩
  | 15 => ⟨S128, .f32⟩
  | 16 => ⟨S128, .f32⟩
  | 17 => ⟨S128x1, .f32⟩
  | 18 => ⟨S128x16, .f32⟩
  | 19 => ⟨S128x16, .f32⟩
  | 20 => ⟨S128x16, .f32⟩
  | 21 => ⟨S_, .f32⟩
  | 22 => ⟨S128, .f32⟩
  | 23 => ⟨S128x1, .f32⟩
  | 24 => ⟨S128x1, .f32⟩
  | 25 => ⟨S128x16, .f32⟩
  | 26 => ⟨S128x16, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_call0_v0 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_cst_9 : Ref sig .tc := ⟨.hbm, 73, rfl⟩
abbrev main_v52 : Ref sig .tc := ⟨.hbm, 74, rfl⟩
abbrev main_cst_10 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_cst_11 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_cst_12 : Ref sig .tc := ⟨.hbm, 83, rfl⟩
abbrev main_call2_v0 : Ref sig .tc := ⟨.hbm, 84, rfl⟩
abbrev main_v59 : Ref sig .tc := ⟨.hbm, 85, rfl⟩
abbrev main_c_13 : Ref sig .tc := ⟨.hbm, 86, rfl⟩
abbrev main_v60 : Ref sig .tc := ⟨.hbm, 87, rfl⟩
abbrev main_v61 : Ref sig .tc := ⟨.hbm, 88, rfl⟩
abbrev main_c_14 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_c_15 : Ref sig .tc := ⟨.hbm, 95, rfl⟩
abbrev main_v67 : Ref sig .tc := ⟨.hbm, 96, rfl⟩
abbrev main_v68 : Ref sig .tc := ⟨.hbm, 97, rfl⟩
abbrev main_c_16 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_c_17 : Ref sig .tc := ⟨.hbm, 105, rfl⟩
abbrev main_v75 : Ref sig .tc := ⟨.hbm, 106, rfl⟩
abbrev main_v76 : Ref sig .tc := ⟨.hbm, 107, rfl⟩
abbrev main_c_18 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_cst_19 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_cst_20 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_cst_21 : Ref sig .tc := ⟨.hbm, 128, rfl⟩
abbrev main_v94 : Ref sig .tc := ⟨.hbm, 129, rfl⟩
abbrev main_cst_22 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_cst_23 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev main_v102 : Ref sig .tc := ⟨.hbm, 139, rfl⟩
abbrev main_call3_cst : Ref sig .tc := ⟨.hbm, 140, rfl⟩
abbrev main_call3_v0 : Ref sig .tc := ⟨.hbm, 141, rfl⟩
abbrev main_call3_cst_0 : Ref sig .tc := ⟨.hbm, 142, rfl⟩
abbrev main_call3_v1 : Ref sig .tc := ⟨.hbm, 143, rfl⟩
abbrev main_call3_v2 : Ref sig .tc := ⟨.hbm, 144, rfl⟩
abbrev main_call3_v3 : Ref sig .tc := ⟨.hbm, 145, rfl⟩
abbrev main_call3_v4 : Ref sig .tc := ⟨.hbm, 146, rfl⟩
abbrev main_call3_v5 : Ref sig .tc := ⟨.hbm, 147, rfl⟩
abbrev main_call3_v6 : Ref sig .tc := ⟨.hbm, 148, rfl⟩
abbrev main_call3_cst_1 : Ref sig .tc := ⟨.hbm, 149, rfl⟩
abbrev main_call3_v7 : Ref sig .tc := ⟨.hbm, 150, rfl⟩
abbrev main_call3_v8 : Ref sig .tc := ⟨.hbm, 151, rfl⟩
abbrev main_call3_v9 : Ref sig .tc := ⟨.hbm, 152, rfl⟩
abbrev main_call3_v10 : Ref sig .tc := ⟨.hbm, 153, rfl⟩
abbrev main_v103 : Ref sig .tc := ⟨.hbm, 154, rfl⟩

abbrev nD : Nat := 1
abbrev τ : Topo := Topo.v7x

variable {F : FTy → Type} [FloatOps F]

class Facts₀ : Prop where
  slices_S2x1200000_S1x1200000_0_0 : S2x1200000.Slices ![0, 0] S1x1200000
  shapeCasts_S1x1200000_S1200000 : S1x1200000.ShapeCasts S1200000
  slices_S2x1200000_S1x1200000_1_0 : S2x1200000.Slices ![1, 0] S1x1200000
  concatenates_S1200000_S100000_S1300000_d0 : Shape.Concatenates [S1200000, S100000] S1300000 0
  bcast_S_S1300000 : S_.BroadcastsInDim S1300000 (![] : Fin 0 → Fin S1300000.rank)
  bcast_S_S100000 : S_.BroadcastsInDim S100000 (![] : Fin 0 → Fin S100000.rank)
  bcast_S1300000_S1300000x1_0 : S1300000.BroadcastsInDim S1300000x1 (![0] : Fin 1 → Fin S1300000x1.rank)
  bcast_S1300000x1_S1300000x128_0_1 : S1300000x1.BroadcastsInDim S1300000x128 (![0, 1] : Fin 2 → Fin S1300000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1300000x1_S1300000x16_0_1 : S1300000x1.BroadcastsInDim S1300000x16 (![0, 1] : Fin 2 → Fin S1300000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S_S128x16 : S_.BroadcastsInDim S128x16 (![] : Fin 0 → Fin S128x16.rank)
  bcast_S100000_S100000x1_0 : S100000.BroadcastsInDim S100000x1 (![0] : Fin 1 → Fin S100000x1.rank)
  bcast_S_S128 : S_.BroadcastsInDim S128 (![] : Fin 0 → Fin S128.rank)
  bcast_S128_S128x1_0 : S128.BroadcastsInDim S128x1 (![0] : Fin 1 → Fin S128x1.rank)
  bcast_S128x1_S128x16_0_1 : S128x1.BroadcastsInDim S128x16 (![0, 1] : Fin 2 → Fin S128x16.rank)
  reducesTo_S128x16_S128_d1 : S128x16.ReducesTo [1] S128
  h_S_ : 0 < S_.numel
  dot_S100000x64_S64x128_S100000x128_1_0_0_1_n_n_wf : DotDims.WF S100000x64 S64x128 S100000x128 [1] [0] [0] [1] [] []
  scatter_S100000_S1300000x1_S1300000_n_0_0_1_wf : ScatterDims.WF S100000 S1300000x1 S1300000 [] [0] [0] 1
  gather_S100000_S1300000x1_S1300000_n_0_n_n_0_1_1_wf : GatherDims.WF S100000 S1300000x1 S1300000 [] [0] [] [0] [] 1 ![1]
  gather_S100000x128_S1300000x1_S1300000x128_1_0_n_n_0_1_1128_wf : GatherDims.WF S100000x128 S1300000x1 S1300000x128 [1] [0] [] [0] [] 1 ![1, 128]
  scatter_S100000x128_S1300000x1_S1300000x128_1_0_0_1_wf : ScatterDims.WF S100000x128 S1300000x1 S1300000x128 [1] [0] [0] 1
  dot_S100000x128_S128x16_S100000x16_1_0_0_1_n_n_wf : DotDims.WF S100000x128 S128x16 S100000x16 [1] [0] [0] [1] [] []
  gather_S100000x16_S1300000x1_S1300000x16_1_0_n_n_0_1_116_wf : GatherDims.WF S100000x16 S1300000x1 S1300000x16 [1] [0] [] [0] [] 1 ![1, 16]
  scatter_S100000x16_S1300000x1_S1300000x16_1_0_0_1_wf : ScatterDims.WF S100000x16 S1300000x1 S1300000x16 [1] [0] [0] 1
  scatter_S128x16_S100000x1_S100000x16_1_0_0_1_wf : ScatterDims.WF S128x16 S100000x1 S100000x16 [1] [0] [0] 1
  scatter_S128_S100000x1_S100000_n_0_0_1_wf : ScatterDims.WF S128 S100000x1 S100000 [] [0] [0] 1

variable [Facts₀]

def dot_S100000x64_S64x128_S100000x128_1_0_0_1_n_n : DotDims S100000x64 S64x128 S100000x128 where
  lhsContracting := [1]
  rhsContracting := [0]
  lhsNonContracting := [0]
  rhsNonContracting := [1]
  lhsBatch := []
  rhsBatch := []
  wf := dot_S100000x64_S64x128_S100000x128_1_0_0_1_n_n_wf
def scatter_S100000_S1300000x1_S1300000_n_0_0_1 : ScatterDims S100000 S1300000x1 S1300000 where
  updateWindowDims := []
  insertedWindowDims := [0]
  scatterDimsToOperandDims := [0]
  indexVectorDim := 1
  wf := scatter_S100000_S1300000x1_S1300000_n_0_0_1_wf
def gather_S100000_S1300000x1_S1300000_n_0_n_n_0_1_1 : GatherDims S100000 S1300000x1 S1300000 where
  offsetDims := []
  collapsedSliceDims := [0]
  operandBatchingDims := []
  startIndicesBatchingDims := []
  startIndexMap := [0]
  indexVectorDim := 1
  sliceSizes := ![1]
  wf := gather_S100000_S1300000x1_S1300000_n_0_n_n_0_1_1_wf
def gather_S100000x128_S1300000x1_S1300000x128_1_0_n_n_0_1_1128 : GatherDims S100000x128 S1300000x1 S1300000x128 where
  offsetDims := [1]
  collapsedSliceDims := [0]
  operandBatchingDims := []
  startIndicesBatchingDims := []
  startIndexMap := [0]
  indexVectorDim := 1
  sliceSizes := ![1, 128]
  wf := gather_S100000x128_S1300000x1_S1300000x128_1_0_n_n_0_1_1128_wf
def scatter_S100000x128_S1300000x1_S1300000x128_1_0_0_1 : ScatterDims S100000x128 S1300000x1 S1300000x128 where
  updateWindowDims := [1]
  insertedWindowDims := [0]
  scatterDimsToOperandDims := [0]
  indexVectorDim := 1
  wf := scatter_S100000x128_S1300000x1_S1300000x128_1_0_0_1_wf
def dot_S100000x128_S128x16_S100000x16_1_0_0_1_n_n : DotDims S100000x128 S128x16 S100000x16 where
  lhsContracting := [1]
  rhsContracting := [0]
  lhsNonContracting := [0]
  rhsNonContracting := [1]
  lhsBatch := []
  rhsBatch := []
  wf := dot_S100000x128_S128x16_S100000x16_1_0_0_1_n_n_wf
def gather_S100000x16_S1300000x1_S1300000x16_1_0_n_n_0_1_116 : GatherDims S100000x16 S1300000x1 S1300000x16 where
  offsetDims := [1]
  collapsedSliceDims := [0]
  operandBatchingDims := []
  startIndicesBatchingDims := []
  startIndexMap := [0]
  indexVectorDim := 1
  sliceSizes := ![1, 16]
  wf := gather_S100000x16_S1300000x1_S1300000x16_1_0_n_n_0_1_116_wf
def scatter_S100000x16_S1300000x1_S1300000x16_1_0_0_1 : ScatterDims S100000x16 S1300000x1 S1300000x16 where
  updateWindowDims := [1]
  insertedWindowDims := [0]
  scatterDimsToOperandDims := [0]
  indexVectorDim := 1
  wf := scatter_S100000x16_S1300000x1_S1300000x16_1_0_0_1_wf
def scatter_S128x16_S100000x1_S100000x16_1_0_0_1 : ScatterDims S128x16 S100000x1 S100000x16 where
  updateWindowDims := [1]
  insertedWindowDims := [0]
  scatterDimsToOperandDims := [0]
  indexVectorDim := 1
  wf := scatter_S128x16_S100000x1_S100000x16_1_0_0_1_wf
def scatter_S128_S100000x1_S100000_n_0_0_1 : ScatterDims S128 S100000x1 S100000 where
  updateWindowDims := []
  insertedWindowDims := [0]
  scatterDimsToOperandDims := [0]
  indexVectorDim := 1
  wf := scatter_S128_S100000x1_S100000_n_0_0_1_wf

class Facts : Prop extends Facts₀ where

variable [Facts]
-- ==== Proof.LibJoinTwo.lean ====
/-
  A two-piece concatenation with its pieces as plain arguments.

  The concatenation of a list of arrays carries a proof that the pieces' shapes add up along the joined axis, and
  that proof's statement mentions the list; a rewriting pass therefore treats the list as fixed and never rewrites
  the arrays inside it.  For two pieces the same array is `join2`, whose pieces are ordinary arguments and whose
  side condition mentions their shapes only, so what each piece holds can be rewritten in place.  The tactic below
  is the host-operation read-back as one rewriting pass, with every two-piece concatenation put in that form first.
-/
import Idealize.ShloMosaic.Lib.StableHlo.Run

noncomputable section

namespace Cert.LibJoinTwo

open Idealize.ShloMosaic Idealize.ShloMosaic.StableHlo

/-- The concatenation of two arrays along axis `a` of `t`, the pieces as arguments. -/
def join2 {α : Type} (t : Shape) (a : Fin t.rank) (s₁ s₂ : Shape) (x : s₁.Idx → α) (y : s₂.Idx → α)
    (h : Shape.Concatenates [s₁, s₂] t a) : t.Idx → α :=
  concatenate t a [⟨s₁, x⟩, ⟨s₂, y⟩] h

/-- A concatenation of a two-element list is `join2` of its pieces. -/
theorem concatenate_pair {α : Type} (t : Shape) (a : Fin t.rank) (s₁ s₂ : Shape) (x : s₁.Idx → α) (y : s₂.Idx → α)
    (h : Shape.Concatenates [s₁, s₂] t a) :
    concatenate t a [⟨s₁, x⟩, ⟨s₂, y⟩] h = join2 t a s₁ s₂ x y h := rfl

/-- What a buffer holds after a line of host operations, as ONE rewriting pass: each operation's result at its own
    buffer is its function of its operands' contents, at any other buffer what was there; a two-piece concatenation
    is put in the form whose pieces can be rewritten. -/
macro "host_results" : tactic =>
  `(tactic| (simp (disch := decide) only [after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne', Cert.LibJoinTwo.concatenate_pair]))

end Cert.LibJoinTwo

end
-- ==== Proof.LibPlainDot.lean ====
/-
  A plain matrix product, read at one entry.

  A contraction with the dimension numbers of "rows of an [n, k] matrix against columns of a [k, d] matrix" (contract
  axis 1 of the left with axis 0 of the right, no batch axis) sums, at entry (p, o), the products of row p of the left
  operand with column o of the right: the sum over j of lhs(p, j) · rhs(j, o).  This holds for any record of those
  dimension numbers, whatever its extents and formats, and gives the same reading of a matrix unit's product into the
  zero accumulator and of the host's dot_general, on the extended reals.
-/
import Idealize.ShloMosaic.PureOps.Ideal.Laws
import Idealize.ShloMosaic.Lib.ValueIdx

noncomputable section

namespace Cert.LibPlainDot

open Idealize.ShloMosaic Idealize.ShloMosaic.ValueIdx

/-- The sum over the contraction index is the sum over the one contracted coordinate j, the left operand read at
    (p, j) and the right at (j, o). -/
theorem sum_contr_plain {n k d : ℕ} (D : DotDims ⟨2, ![n, k]⟩ ⟨2, ![k, d]⟩ ⟨2, ![n, d]⟩)
    (hlc : D.lhsContracting = [1]) (hrc : D.rhsContracting = [0]) (hln : D.lhsNonContracting = [0]) (hrn : D.rhsNonContracting = [1])
    (hlb : D.lhsBatch = []) (hrb : D.rhsBatch = [])
    (lhs : (⟨2, ![n, k]⟩ : Shape).Idx → EReal) (rhs : (⟨2, ![k, d]⟩ : Shape).Idx → EReal) (p : Fin n) (o : Fin d) :
    ∑ q : D.contr.Idx, lhs (D.lhsIdx (ix2 p o) q) * rhs (D.rhsIdx (ix2 p o) q) = ∑ j : Fin k, lhs (ix2 p j) * rhs (ix2 j o) := by
  obtain ⟨lc, rc, ln, rn, lb, rb, wf⟩ := D
  simp only at hlc hrc hln hrn hlb hrb
  subst hlc hrc hln hrn hlb hrb
  rw [← Equiv.sum_comp (contrEquiv1 (DotDims.mk [1] [0] [0] [1] [] [] wf) k rfl rfl).symm]
  refine Finset.sum_congr rfl fun j _ => ?_
  have hk := contrEquiv1_symm_val (DotDims.mk [1] [0] [0] [1] [] [] wf) k rfl rfl j
  have el : (DotDims.mk [1] [0] [0] [1] [] [] wf).lhsIdx (ix2 p o) ((contrEquiv1 (DotDims.mk [1] [0] [0] [1] [] [] wf) k rfl rfl).symm j) = ix2 p j :=
    funext fun a => Fin.ext (by
      match a with
      | ⟨0, _⟩ => rfl
      | ⟨1, _⟩ => exact ((DotDims.mk [1] [0] [0] [1] [] [] wf).lhsIdx_val_of_single rfl _ _).trans hk)
  have er : (DotDims.mk [1] [0] [0] [1] [] [] wf).rhsIdx (ix2 p o) ((contrEquiv1 (DotDims.mk [1] [0] [0] [1] [] [] wf) k rfl rfl).symm j) = ix2 j o :=
    funext fun a => Fin.ext (by
      match a with
      | ⟨0, _⟩ => exact ((DotDims.mk [1] [0] [0] [1] [] [] wf).rhsIdx_val_of_single rfl _ _).trans hk
      | ⟨1, _⟩ => rfl)
  rw [el, er]

/-- A matrix unit's product into the zero accumulator, at (p, o). -/
theorem matmul_zero_apply {n k d : ℕ} {φ₁ φ₂ : FTy} (D : DotDims ⟨2, ![n, k]⟩ ⟨2, ![k, d]⟩ ⟨2, ![n, d]⟩)
    (hlc : D.lhsContracting = [1]) (hrc : D.rhsContracting = [0]) (hln : D.lhsNonContracting = [0]) (hrn : D.rhsNonContracting = [1])
    (hlb : D.lhsBatch = []) (hrb : D.rhsBatch = []) (prec : Option ContractPrecision)
    (lhs : FVec Ideal ⟨2, ![n, k]⟩ φ₁) (rhs : FVec Ideal ⟨2, ![k, d]⟩ φ₂) (p : Fin n) (o : Fin d) :
    FloatOps.matmul D prec lhs rhs (constant ⟨2, ![n, d]⟩ .f32 0x00000000#32) (ix2 p o) = ∑ j : Fin k, lhs (ix2 p j) * rhs (ix2 j o) :=
  (Ideal.matmul_constant_zero_apply D prec lhs rhs (ix2 p o)).trans (sum_contr_plain D hlc hrc hln hrn hlb hrb lhs rhs p o)

/-- The host's dot_general, at (p, o). -/
theorem dotGeneral_apply {n k d : ℕ} {φ₁ φ₂ : FTy} (D : DotDims ⟨2, ![n, k]⟩ ⟨2, ![k, d]⟩ ⟨2, ![n, d]⟩)
    (hlc : D.lhsContracting = [1]) (hrc : D.rhsContracting = [0]) (hln : D.lhsNonContracting = [0]) (hrn : D.rhsNonContracting = [1])
    (hlb : D.lhsBatch = []) (hrb : D.rhsBatch = []) (prec : Option ContractPrecision) (sched : HostSchedule)
    (lhs : FVec Ideal ⟨2, ![n, k]⟩ φ₁) (rhs : FVec Ideal ⟨2, ![k, d]⟩ φ₂) (p : Fin n) (o : Fin d) :
    FloatOps.dotGeneral D prec sched lhs rhs (ix2 p o) = ∑ j : Fin k, lhs (ix2 p j) * rhs (ix2 j o) :=
  (Ideal.dotGeneral_apply D prec sched lhs rhs (ix2 p o)).trans (sum_contr_plain D hlc hrc hln hrn hlb hrb lhs rhs p o)

end Cert.LibPlainDot

end
-- ==== Proof.LibBiasRow.lean ====
/-
  A bias vector laid along the rows of a matrix, read at an entry.

  A vector [D] reshaped to the one-row matrix [1, D] has the vector's element k at (0, k); that row spread over N rows has,
  at (p, k), the row's element (0, k).  Together: adding a bias vector to every row of an [N, D] matrix adds element k of the
  vector at column k.  General in the extents and the element type.
-/
import Idealize.ShloMosaic.Lib.ValueIdx
import Idealize.ShloMosaic.Lib.Pipeline.Value

noncomputable section

namespace Cert.LibBiasRow

open Idealize.ShloMosaic Idealize.ShloMosaic.ValueIdx

/-- A vector reshaped to a one-row matrix: element (u, k) of the row is element k of the vector. -/
theorem vec_as_row_apply {α : Type} {D : ℕ} (h : (⟨1, ![D]⟩ : Shape).ShapeCasts ⟨2, ![1, D]⟩)
    (v : (⟨1, ![D]⟩ : Shape).Idx → α) (u : Fin 1) (k : Fin D) :
    shapeCast ⟨2, ![1, D]⟩ v h (ix2 u k) = v (ix1 k) := by
  refine (shapeCast_addUnit_apply (n := 1) ![D] v h (ix2 u k)).trans (congrArg v ?_)
  funext a
  match a with
  | ⟨0, _⟩ => rfl

/-- A one-row matrix spread over N rows: element (p, k) is the row's element (0, k) (the first axis is a unit axis; the
    second is read at the column, also when D = 1). -/
theorem row_spread_apply {α : Type} {N D : ℕ} (h : (⟨2, ![1, D]⟩ : Shape).Broadcasts ⟨2, ![N, D]⟩)
    (v : (⟨2, ![1, D]⟩ : Shape).Idx → α) (p : Fin N) (k : Fin D) :
    broadcastTo ⟨2, ![N, D]⟩ v h (ix2 p k) = v (ix2 (0 : Fin 1) k) :=
  broadcastTo_apply v h (ix2 p k) (ix2 (0 : Fin 1) k) (fun a => by
    match a with
    | ⟨0, _⟩ => rfl
    | ⟨1, _⟩ =>
      show k.val = if D = 1 then 0 else k.val
      split
      · have := k.isLt; omega
      · rfl)

/-- The two together: a vector reshaped to a row and spread over N rows reads, at (p, k), the vector's element k. -/
theorem vec_spread_apply {α : Type} {N D : ℕ} (h₁ : (⟨1, ![D]⟩ : Shape).ShapeCasts ⟨2, ![1, D]⟩)
    (h₂ : (⟨2, ![1, D]⟩ : Shape).Broadcasts ⟨2, ![N, D]⟩) (v : (⟨1, ![D]⟩ : Shape).Idx → α) (p : Fin N) (k : Fin D) :
    broadcastTo ⟨2, ![N, D]⟩ (shapeCast ⟨2, ![1, D]⟩ v h₁) h₂ (ix2 p k) = v (ix1 k) :=
  (row_spread_apply h₂ _ p k).trans (vec_as_row_apply h₁ v 0 k)

end Cert.LibBiasRow

end
-- ==== Proof.LibRowBroadcast.lean ====
/-
  Two more `broadcastInDim` forms read at an index: a vector [D] placed as the one row of a [1, D] matrix (the operand's
  axis sent to the result's axis 1), and a [1, D] row spread over N rows. General in the extents and the element type.
-/
import Idealize.ShloMosaic.Lib.ValueIdx
import Idealize.ShloMosaic.Lib.Pipeline.Value

noncomputable section

namespace Cert.LibRowBroadcast

open Idealize.ShloMosaic Idealize.ShloMosaic.ValueIdx

/-- A vector as a row: element (u, o) of the row is element o of the vector (also when D = 1, where the operand's one
    axis is a unit axis read at 0 = o). -/
theorem vec_row_apply {α : Type} {D : ℕ} (h : (⟨1, ![D]⟩ : Shape).BroadcastsInDim ⟨2, ![1, D]⟩ ![1])
    (v : (⟨1, ![D]⟩ : Shape).Idx → α) (u : Fin 1) (o : Fin D) :
    broadcastInDim ⟨2, ![1, D]⟩ ![1] h v (ix2 u o) = v (ix1 o) :=
  broadcastInDim_apply ![1] h v (ix2 u o) (ix1 o) (fun a => by
    match a with
    | ⟨0, _⟩ =>
      show o.val = if D = 1 then 0 else o.val
      split
      · have := o.isLt; omega
      · rfl)

/-- A row spread over N rows: element (p, o) is the row's element (0, o) (the operand's first axis is a unit axis; its
    second is read at the column, also when D = 1). -/
theorem row_mat_apply {α : Type} {N D : ℕ} (h : (⟨2, ![1, D]⟩ : Shape).BroadcastsInDim ⟨2, ![N, D]⟩ ![0, 1])
    (v : (⟨2, ![1, D]⟩ : Shape).Idx → α) (p : Fin N) (o : Fin D) :
    broadcastInDim ⟨2, ![N, D]⟩ ![0, 1] h v (ix2 p o) = v (ix2 (0 : Fin 1) o) :=
  broadcastInDim_apply ![0, 1] h v (ix2 p o) (ix2 (0 : Fin 1) o) (fun a => by
    match a with
    | ⟨0, _⟩ => rfl
    | ⟨1, _⟩ =>
      show o.val = if D = 1 then 0 else o.val
      split
      · have := o.isLt; omega
      · rfl)

end Cert.LibRowBroadcast

end
-- ==== Proof.LibRowStages.lean ====
/-
  Row-wise stages on matrices of extended reals: the matrix product, a bias row added to every row, the floor at zero.

  On the extended reals an [n, k] matrix times a [k, d] matrix has at (p, o) the sum over j of a(p, j) * w(j, o); adding a
  one-row matrix to every row adds b(0, j) at (p, j); flooring takes the maximum with what the zero word of the 32-bit
  float format denotes.  Each of the three works one row at a time: row p of the result depends on row p of the matrix
  operand only.  So if row q of a matrix ab is row p of a matrix a, the same holds of their images under any of the three
  (`RowEq`, `mm_row`, `addRow_row`, `relu_row`), hence under any composition: a stage computed on a block of rows is the
  same rows of the stage of the whole matrix.  Nothing is distributed or cancelled, so this holds at the infinities too.

  The operations a vector unit and a host program apply are these functions, entry by entry: a matrix unit's product into
  the zero accumulator and the host's contraction with the same dimension numbers are `mm` whatever the operands' float
  formats; a bias row spread over the rows and added is `addRow` (for the unit's spread of a one-row matrix, and for the
  host's vector placed as a row and then spread); the maximum against a splat of the zero word is `relu` (splat from a
  scalar constant by the unit, from a scalar array by the host); a change to a narrower float format changes nothing.
-/
import Idealize.ShloMosaic.PureOps.Ideal
import Idealize.ShloMosaic.PureOps.Ideal.Laws
import Idealize.ShloMosaic.Lib.ValueIdx
import Idealize.ShloMosaic.Lib.Pipeline.Value
import proofs.«154275_j65085934404070_1_alg».proof.Proof.LibPlainDot
import proofs.«154275_j65085934404070_1_alg».proof.Proof.LibBiasRow
import proofs.«154275_j65085934404070_1_alg».proof.Proof.LibRowBroadcast

noncomputable section

open scoped BigOperators

namespace Cert.LibRowStages

open Idealize.ShloMosaic Idealize.ShloMosaic.ValueIdx

/-- An [a, b] matrix of extended reals. -/
abbrev Mat (a b : ℕ) : Type := (⟨2, ![a, b]⟩ : Shape).Idx → EReal

/-- The floor of the rectifier: what the zero word of the 32-bit float format denotes (never evaluated: the same word
    stands on both sides of every equation). -/
def floor0 : EReal := Ideal.ofBits .f32 0x00000000#32

/-- The matrix product: entry (p, o) is the sum over j of a(p, j) * w(j, o). -/
def mm {n k d : ℕ} (a : Mat n k) (w : Mat k d) : Mat n d :=
  fun i => ∑ j : Fin k, a (ix2 (i 0) j) * w (ix2 j (i 1))

/-- A one-row matrix added to every row: entry (p, j) gains b(0, j). -/
def addRow {n k : ℕ} (a : Mat n k) (b : Mat 1 k) : Mat n k :=
  fun i => a i + b (ix2 (0 : Fin 1) (i 1))

/-- Every entry floored at zero. -/
def relu {n k : ℕ} (a : Mat n k) : Mat n k := fun i => max (a i) floor0

/-! ## One row at a time -/

/-- Row q of ab is row p of a. -/
def RowEq {m n k : ℕ} (ab : Mat m k) (q : Fin m) (a : Mat n k) (p : Fin n) : Prop :=
  ∀ j : Fin k, ab (ix2 q j) = a (ix2 p j)

theorem mm_row {m n k d : ℕ} {ab : Mat m k} {q : Fin m} {a : Mat n k} {p : Fin n} (h : RowEq ab q a p) (w : Mat k d) :
    RowEq (mm ab w) q (mm a w) p := fun o => by
  show ∑ j : Fin k, ab (ix2 q j) * w (ix2 j o) = ∑ j : Fin k, a (ix2 p j) * w (ix2 j o)
  exact Finset.sum_congr rfl fun j _ => by rw [h j]

theorem addRow_row {m n k : ℕ} {ab : Mat m k} {q : Fin m} {a : Mat n k} {p : Fin n} (h : RowEq ab q a p) (b : Mat 1 k) :
    RowEq (addRow ab b) q (addRow a b) p := fun j => by
  show ab (ix2 q j) + b (ix2 (0 : Fin 1) j) = a (ix2 p j) + b (ix2 (0 : Fin 1) j)
  rw [h j]

theorem relu_row {m n k : ℕ} {ab : Mat m k} {q : Fin m} {a : Mat n k} {p : Fin n} (h : RowEq ab q a p) :
    RowEq (relu ab) q (relu a) p := fun j => by
  show max (ab (ix2 q j)) floor0 = max (a (ix2 p j)) floor0
  rw [h j]

/-! ## The machine's operations are these functions -/

/-- A matrix unit's product into the zero accumulator is the matrix product, whatever the operands' formats. -/
theorem matmul_eq_mm {n k d : ℕ} {φ₁ φ₂ : FTy} (D : DotDims ⟨2, ![n, k]⟩ ⟨2, ![k, d]⟩ ⟨2, ![n, d]⟩)
    (hlc : D.lhsContracting = [1]) (hrc : D.rhsContracting = [0]) (hln : D.lhsNonContracting = [0])
    (hrn : D.rhsNonContracting = [1]) (hlb : D.lhsBatch = []) (hrb : D.rhsBatch = [])
    (prec : Option ContractPrecision) (l : FVec Ideal ⟨2, ![n, k]⟩ φ₁) (r : FVec Ideal ⟨2, ![k, d]⟩ φ₂) :
    matmul D prec l r (constant ⟨2, ![n, d]⟩ .f32 0x00000000#32) = mm l r := by
  funext i
  obtain ⟨p, o, rfl⟩ : ∃ (p : Fin n) (o : Fin d), i = ix2 p o := ⟨i 0, i 1, eq_ix2 i⟩
  exact Cert.LibPlainDot.matmul_zero_apply D hlc hrc hln hrn hlb hrb prec l r p o

/-- The host's contraction with the same dimension numbers is the matrix product. -/
theorem dotGeneral_eq_mm {n k d : ℕ} {φ₁ φ₂ : FTy} (D : DotDims ⟨2, ![n, k]⟩ ⟨2, ![k, d]⟩ ⟨2, ![n, d]⟩)
    (hlc : D.lhsContracting = [1]) (hrc : D.rhsContracting = [0]) (hln : D.lhsNonContracting = [0])
    (hrn : D.rhsNonContracting = [1]) (hlb : D.lhsBatch = []) (hrb : D.rhsBatch = [])
    (prec : Option ContractPrecision) (l : FVec Ideal ⟨2, ![n, k]⟩ φ₁) (r : FVec Ideal ⟨2, ![k, d]⟩ φ₂) :
    Host.dotGeneral D prec l r = mm l r := by
  funext i
  obtain ⟨p, o, rfl⟩ : ∃ (p : Fin n) (o : Fin d), i = ix2 p o := ⟨i 0, i 1, eq_ix2 i⟩
  exact Cert.LibPlainDot.dotGeneral_apply D hlc hrc hln hrn hlb hrb prec .single l r p o

/-- Adding a one-row matrix spread over the rows is `addRow`. -/
theorem addf_spread_eq_addRow {n k : ℕ} (h : (⟨2, ![1, k]⟩ : Shape).Broadcasts ⟨2, ![n, k]⟩)
    (a : FVec Ideal ⟨2, ![n, k]⟩ .f32) (b : FVec Ideal ⟨2, ![1, k]⟩ .f32) :
    addf a (broadcastTo ⟨2, ![n, k]⟩ b h) = addRow a b := by
  funext i
  obtain ⟨p, j, rfl⟩ : ∃ (p : Fin n) (j : Fin k), i = ix2 p j := ⟨i 0, i 1, eq_ix2 i⟩
  show a (ix2 p j) + broadcastTo ⟨2, ![n, k]⟩ b h (ix2 p j) = a (ix2 p j) + b (ix2 (0 : Fin 1) j)
  rw [Cert.LibBiasRow.row_spread_apply h b p j]

/-- The maximum against a splat of the zero word is `relu`. -/
theorem maximumf_zero_eq_relu {n k : ℕ} (a : FVec Ideal ⟨2, ![n, k]⟩ .f32) :
    maximumf a (broadcast ⟨2, ![n, k]⟩ (Scalar.ofBits (F := Ideal) .f32 0x00000000#32)) = relu a := rfl

/-- A change to a narrower float format changes no extended real. -/
theorem truncf_eq {s : Shape} {φ ψ : FTy} (a : FVec Ideal s φ) (h : ψ.bits < φ.bits) :
    (truncf ψ a h : FVec Ideal s ψ) = a := rfl

/-! ## The host program's spellings -/

/-- Adding a vector placed as a row and spread over the rows is `addRow` of the vector reshaped to a row. -/
theorem addf_hostBias_eq_addRow {n k : ℕ} (h1 : (⟨1, ![k]⟩ : Shape).BroadcastsInDim ⟨2, ![1, k]⟩ ![1])
    (h2 : (⟨2, ![1, k]⟩ : Shape).BroadcastsInDim ⟨2, ![n, k]⟩ ![0, 1]) (hc : (⟨1, ![k]⟩ : Shape).ShapeCasts ⟨2, ![1, k]⟩)
    (a : FVec Ideal ⟨2, ![n, k]⟩ .f32) (v : FVec Ideal ⟨1, ![k]⟩ .f32) :
    addf a (broadcastInDim ⟨2, ![n, k]⟩ ![0, 1] h2 (broadcastInDim ⟨2, ![1, k]⟩ ![1] h1 v))
      = addRow a (shapeCast ⟨2, ![1, k]⟩ v hc) := by
  funext i
  obtain ⟨p, j, rfl⟩ : ∃ (p : Fin n) (j : Fin k), i = ix2 p j := ⟨i 0, i 1, eq_ix2 i⟩
  show a (ix2 p j) + broadcastInDim ⟨2, ![n, k]⟩ ![0, 1] h2 (broadcastInDim ⟨2, ![1, k]⟩ ![1] h1 v) (ix2 p j)
    = a (ix2 p j) + shapeCast ⟨2, ![1, k]⟩ v hc (ix2 (0 : Fin 1) j)
  rw [Cert.LibRowBroadcast.row_mat_apply h2 _ p j, Cert.LibRowBroadcast.vec_row_apply h1 v 0 j,
    Cert.LibBiasRow.vec_as_row_apply hc v 0 j]

/-- The maximum against the zero word spread from a scalar is `relu`. -/
theorem maximumf_hostZero_eq_relu {n k : ℕ} (h : (⟨0, ![]⟩ : Shape).BroadcastsInDim ⟨2, ![n, k]⟩ ![])
    (a : FVec Ideal ⟨2, ![n, k]⟩ .f32) :
    maximumf a (broadcastInDim ⟨2, ![n, k]⟩ ![] h (constant (F := Ideal) ⟨0, ![]⟩ .f32 0x00000000#32)) = relu a := by
  funext i
  show max (a i) (broadcastInDim ⟨2, ![n, k]⟩ ![] h (constant (F := Ideal) ⟨0, ![]⟩ .f32 0x00000000#32) i) = max (a i) floor0
  rw [broadcastInDim_apply ![] h _ i ix0 (fun a => a.elim0)]
  rfl

end Cert.LibRowStages

end
-- ==== Proof.Glue.lean ====
/-
  The host-side stages of a two-layer graph convolution, as whole-array functions.

  A graph on 100000 nodes is given by 1200000 directed edges (source row and destination row of an integer array); a self
  loop is added at every node, so there are 1300000 edges in all.  With deg(v) the number of edges into v and
  dinv(v) = deg(v)^(-1/2) where deg(v) > 0 (and 0 elsewhere), edge e from s(e) to d(e) has weight dinv(s(e)) * dinv(d(e)).
  One aggregation sends a node-feature matrix h to the matrix whose row v is the sum over the edges e into v of
  weight(e) * (row s(e) of h).  A node index is read the way array indexing reads it: a negative one counts from the end.
  After two aggregations the node features are averaged over each of 128 graphs (a node's graph is given by an integer
  vector; a graph with no node divides by one) and each graph's 16 averages go through the logarithm of the softmax.

  These functions are spelt with exactly the array operations the two programs apply, so that each program's own term
  unfolds to them; nothing is computed here.
-/
import proofs.«154275_j65085934404070_1_alg».proof.KernelIdeal
import Idealize.ShloMosaic.PureOps.Ideal
import proofs.«154275_j65085934404070_1_alg».proof.Proof.LibRowStages

noncomputable section

namespace Cert.Gcn

open Cert.KernelIdeal Cert.KernelIdeal.Facts₀ Idealize.ShloMosaic

variable [Cert.KernelIdeal.Facts₀]

/-- Edge sources followed by the self loops: row 0 of the edge array, then 0, 1, …, 99999. -/
def srcOf (ei : IVec S2x1200000 32) : IVec S1300000 32 :=
  concatenate S1300000 0 [⟨S1200000, shapeCast _ (extractStridedSlice S1x1200000 ![0, 0] ei slices_S2x1200000_S1x1200000_0_0) shapeCasts_S1x1200000_S1200000⟩, ⟨S100000, iotaInDim S100000 32 0⟩] concatenates_S1200000_S100000_S1300000_d0

/-- Edge destinations followed by the self loops: row 1 of the edge array, then 0, 1, …, 99999. -/
def dstOf (ei : IVec S2x1200000 32) : IVec S1300000 32 :=
  concatenate S1300000 0 [⟨S1200000, shapeCast _ (extractStridedSlice S1x1200000 ![1, 0] ei slices_S2x1200000_S1x1200000_1_0) shapeCasts_S1x1200000_S1200000⟩, ⟨S100000, iotaInDim S100000 32 0⟩] concatenates_S1200000_S100000_S1300000_d0

/-- A vector of edge data as a one-column matrix. -/
def col {α : Type} (v : S1300000.Idx → α) : S1300000x1.Idx → α :=
  broadcastInDim S1300000x1 ![0] bcast_S1300000_S1300000x1_0 v

/-- A node index read as array indexing reads it: a negative index has the node count added. -/
def wrap (v : IVec S1300000 32) : IVec S1300000 32 :=
  select (cmpi .slt v (broadcastInDim S1300000 ![] bcast_S_S1300000 (constantI S_ 32 0#32)))
    (addi v (broadcastInDim S1300000 ![] bcast_S_S1300000 (constantI S_ 32 100000#32))) v

/-- The number of edges into each node (self loop included), as a float. -/
def degOf (d : IVec S1300000 32) : FVec Ideal S100000 .f32 :=
  Host.scatterAdd scatter_S100000_S1300000x1_S1300000_n_0_0_1
    (broadcastInDim S100000 ![] bcast_S_S100000 (constant (F := Ideal) S_ .f32 0x00000000#32)) (col d)
    (broadcastInDim S1300000 ![] bcast_S_S1300000 (constant (F := Ideal) S_ .f32 0x3F800000#32))

/-- deg^(-1/2) where the degree is positive, zero elsewhere. -/
def dinvOf (d : IVec S1300000 32) : FVec Ideal S100000 .f32 :=
  select (cmpf .ogt (degOf d) (broadcastInDim S100000 ![] bcast_S_S100000 (constant (F := Ideal) S_ .f32 0x00000000#32)))
    (Host.rsqrt (degOf d)) (broadcastInDim S100000 ![] bcast_S_S100000 (constant (F := Ideal) S_ .f32 0x00000000#32))

/-- The weight of each edge: dinv at its source times dinv at its destination. -/
def normOf (s d : IVec S1300000 32) : FVec Ideal S1300000 .f32 :=
  mulf (Host.gather gather_S100000_S1300000x1_S1300000_n_0_n_n_0_1_1 (dinvOf d) (col (wrap s)))
    (Host.gather gather_S100000_S1300000x1_S1300000_n_0_n_n_0_1_1 (dinvOf d) (col (wrap d)))

/-- One aggregation of 128 features: row v of the result is the sum over the edges e into v of weight(e) times row s(e) of h. -/
def agg128 (h : FVec Ideal S100000x128 .f32) (s d : IVec S1300000 32) (nc : FVec Ideal S1300000x1 .f32) :
    FVec Ideal S100000x128 .f32 :=
  Host.scatterAdd scatter_S100000x128_S1300000x1_S1300000x128_1_0_0_1
    (broadcastInDim S100000x128 ![] bcast_S_S100000x128 (constant (F := Ideal) S_ .f32 0x00000000#32)) (col d)
    (mulf (Host.gather gather_S100000x128_S1300000x1_S1300000x128_1_0_n_n_0_1_1128 h (col (wrap s)))
      (broadcastInDim S1300000x128 ![0, 1] bcast_S1300000x1_S1300000x128_0_1 nc))

/-- The same aggregation of 16 features. -/
def agg16 (h : FVec Ideal S100000x16 .f32) (s d : IVec S1300000 32) (nc : FVec Ideal S1300000x1 .f32) :
    FVec Ideal S100000x16 .f32 :=
  Host.scatterAdd scatter_S100000x16_S1300000x1_S1300000x16_1_0_0_1
    (broadcastInDim S100000x16 ![] bcast_S_S100000x16 (constant (F := Ideal) S_ .f32 0x00000000#32)) (col d)
    (mulf (Host.gather gather_S100000x16_S1300000x1_S1300000x16_1_0_n_n_0_1_116 h (col (wrap s)))
      (broadcastInDim S1300000x16 ![0, 1] bcast_S1300000x1_S1300000x16_0_1 nc))

/-- The mean of the node features over each graph: the sum over the graph's nodes divided by the larger of the
    node count and one. -/
def meanOf (h : FVec Ideal S100000x16 .f32) (b : IVec S100000 32) : FVec Ideal S128x16 .f32 :=
  Host.divf
    (Host.scatterAdd scatter_S128x16_S100000x1_S100000x16_1_0_0_1
      (broadcastInDim S128x16 ![] bcast_S_S128x16 (constant (F := Ideal) S_ .f32 0x00000000#32))
      (broadcastInDim S100000x1 ![0] bcast_S100000_S100000x1_0 b) h)
    (broadcastInDim S128x16 ![0, 1] bcast_S128x1_S128x16_0_1 (broadcastInDim S128x1 ![0] bcast_S128_S128x1_0
      (maximumf
        (Host.scatterAdd scatter_S128_S100000x1_S100000_n_0_0_1
          (broadcastInDim S128 ![] bcast_S_S128 (constant (F := Ideal) S_ .f32 0x00000000#32))
          (broadcastInDim S100000x1 ![0] bcast_S100000_S100000x1_0 b)
          (broadcastInDim S100000 ![] bcast_S_S100000 (constant (F := Ideal) S_ .f32 0x3F800000#32)))
        (broadcastInDim S128 ![] bcast_S_S128 (constant (F := Ideal) S_ .f32 0x3F800000#32)))))

/-- Each row minus its maximum (the maximum folded from minus infinity, and taken once more against minus infinity). -/
def shifted (p : FVec Ideal S128x16 .f32) : FVec Ideal S128x16 .f32 :=
  subf p (broadcastInDim S128x16 ![0, 1] bcast_S128x1_S128x16_0_1 (broadcastInDim S128x1 ![0] bcast_S128_S128x1_0
    (maximumf (broadcastInDim S128 ![] bcast_S_S128 (constant (F := Ideal) S_ .f32 0xFF800000#32))
      (Host.reduce FloatOps.maximumf p (constant (F := Ideal) S_ .f32 0xFF800000#32) reducesTo_S128x16_S128_d1 h_S_))))

/-- The logarithm of the softmax along each row: the shifted row minus the logarithm of the sum of its exponentials. -/
def logSoftmax (p : FVec Ideal S128x16 .f32) : FVec Ideal S128x16 .f32 :=
  subf (shifted p) (broadcastInDim S128x16 ![0, 1] bcast_S128x1_S128x16_0_1 (Host.log (broadcastInDim S128x1 ![0] bcast_S128_S128x1_0
    (Host.reduceAdd (Host.exp (shifted p)) (constant (F := Ideal) S_ .f32 0x00000000#32) reducesTo_S128x16_S128_d1 h_S_))))

/-- Mean over each graph, then the logarithm of the softmax. -/
def pool (h : FVec Ideal S100000x16 .f32) (b : IVec S100000 32) : FVec Ideal S128x16 .f32 := logSoftmax (meanOf h b)

/-- The whole network: x times W1, aggregated, plus b1, floored at zero; times W2, aggregated, plus b2; then the mean
    over each graph and the logarithm of the softmax.  The products, the bias rows and the floor are the row-wise
    stages on matrices of extended reals (a bias vector enters as a one-row matrix). -/
def net (x : FVec Ideal S100000x64 .f32) (ei : IVec S2x1200000 32) (b : IVec S100000 32) (w1 : FVec Ideal S64x128 .f32)
    (b1 : FVec Ideal S128 .f32) (w2 : FVec Ideal S128x16 .f32) (b2 : FVec Ideal S16 .f32) : FVec Ideal S128x16 .f32 :=
  pool
    (Cert.LibRowStages.addRow
      (agg16
        (Cert.LibRowStages.mm
          (Cert.LibRowStages.relu
            (Cert.LibRowStages.addRow
              (agg128 (Cert.LibRowStages.mm x w1) (srcOf ei) (dstOf ei) (col (normOf (srcOf ei) (dstOf ei))))
              (shapeCast S1x128 b1 shapeCasts_S128_S1x128)))
          w2)
        (srcOf ei) (dstOf ei) (col (normOf (srcOf ei) (dstOf ei))))
      (shapeCast S1x16 b2 shapeCasts_S16_S1x16))
    b

end Cert.Gcn

end
-- ==== Proof.LibTypedRefs.lean ====
/-
  A typed tensor reference moves a value between the value's own type and the type its buffer is declared with; the two
  moves at one buffer undo each other, whatever the proofs the two typed references carry.
-/
import Idealize.ShloMosaic.Lib.StableHlo

noncomputable section

namespace Cert.LibTypedRefs

open Idealize.ShloMosaic Idealize.ShloMosaic.StableHlo

/-- Reading back through a typed reference what was written through a typed reference to the same buffer gives the value
    written. -/
theorem ofBuf_toBuf {sig : RefSig} {Val : EltTy → Type} {T : BufTy} (r : Ref sig .tc) (h h' : r.ty = T)
    (a a' : r.space ≠ .host) (b b' : r.isScoped = false) (u : T.Contents Val) :
    (TRef.of r h a b).ofBuf ((TRef.of r h' a' b').toBuf u) = u := by
  subst h; rfl

end Cert.LibTypedRefs

end
-- ==== Proof.LibRowBlocks.lean ====
/-
  Row-wise stages on a block of rows, entry by entry.

  The matrix product, the bias row added to every row and the floor at zero (`mm`, `addRow`, `relu` on matrices of
  extended reals) each compute an entry of their result from one row of the matrix operand.  So an entry of a stage
  applied to a block of rows is the entry of the stage applied to the whole matrix, at the row of the whole matrix the
  block's row is: for the product when the two rows agree entry by entry and the weight columns agree, for the bias row
  when the two matrix entries agree and the two bias entries of that column agree, for the floor when the entries agree.
  Nothing is distributed or cancelled, so these hold at the infinities.  They are what a kernel that walks a matrix in
  blocks of rows needs at a grid point: the block's entry on the left, the whole array's on the right.
-/
import proofs.«154275_j65085934404070_1_alg».proof.Proof.LibRowStages

noncomputable section

open scoped BigOperators

namespace Cert.LibRowBlocks

open Idealize.ShloMosaic Idealize.ShloMosaic.ValueIdx Cert.LibRowStages

/-- Two index pairs with equal coordinates are equal. -/
theorem ix2_congr {a b : ℕ} {p p' : Fin a} {q q' : Fin b} (hp : p = p') (hq : q = q') : ix2 p q = ix2 p' q' := by
  subst hp hq; rfl

/-- An entry of a product of blocks is the entry of the product of the whole matrices, when the block's row is the
    matrix's row and the weight columns agree. -/
theorem mm_block {n k d N : ℕ} (xb : Mat n k) (wb : Mat k d) (X : Mat N k) (W : Mat k d)
    (j : (⟨2, ![n, d]⟩ : Shape).Idx) (i : (⟨2, ![N, d]⟩ : Shape).Idx)
    (hx : ∀ q : Fin k, xb (ix2 (j 0) q) = X (ix2 (i 0) q)) (hw : ∀ q : Fin k, wb (ix2 q (j 1)) = W (ix2 q (i 1))) :
    mm xb wb j = mm X W i :=
  Finset.sum_congr rfl fun q _ => by rw [hx q, hw q]

/-- An entry of a block plus the bias row is the entry of the whole matrix plus the bias row, when the two matrix
    entries agree and so do the two bias entries of that column. -/
theorem addRow_entry {n k N : ℕ} (xb : Mat n k) (bb : Mat 1 k) (X : Mat N k) (B : Mat 1 k)
    (j : (⟨2, ![n, k]⟩ : Shape).Idx) (i : (⟨2, ![N, k]⟩ : Shape).Idx)
    (hx : xb j = X i) (hb : bb (ix2 (0 : Fin 1) (j 1)) = B (ix2 (0 : Fin 1) (i 1))) : addRow xb bb j = addRow X B i := by
  show xb j + bb (ix2 (0 : Fin 1) (j 1)) = X i + B (ix2 (0 : Fin 1) (i 1))
  rw [hx, hb]

/-- The floor at zero of equal entries. -/
theorem relu_entry {n k N : ℕ} (a : Mat n k) (A : Mat N k) (j : (⟨2, ![n, k]⟩ : Shape).Idx) (i : (⟨2, ![N, k]⟩ : Shape).Idx)
    (h : a j = A i) : relu a j = relu A i := by
  show max (a j) floor0 = max (A i) floor0
  rw [h]

end Cert.LibRowBlocks

end
-- ==== Proof.RegionArrays.lean ====
/-
  The four row-blocked regions, each as one function of the arrays it finds.

  Every region walks its left array in 20 blocks of 5000 rows, reads the whole small right array at every point, and
  writes a block of 5000 rows of its output.  What a point writes is a row-wise stage (the matrix product, the bias row
  added to every row, the floor at zero) of its block of rows and the right array; a row-wise stage on a block of rows
  is the same rows of the stage on the whole matrix, so point t writes block t of the stage of the whole arrays.  The 20
  blocks tile the output: row p lies in block p / 5000.  Hence the output array ends holding the stage of the whole
  arrays, whatever the region found in its buffers.
-/
import proofs.«154275_j65085934404070_1_alg».proof.Proof.Gen.KernelIdeal.Frame
import proofs.«154275_j65085934404070_1_alg».proof.Proof.LibRowStages
import proofs.«154275_j65085934404070_1_alg».proof.Proof.LibRowBlocks
import Idealize.ShloMosaic.Lib.Pipeline.Value
import Idealize.ShloMosaic.Lib.ValueIdx
import Idealize.ShloMosaic.PureOps.Ideal.Laws

noncomputable section

namespace Cert.KernelIdeal.RegionArrays

open Cert.KernelIdeal Cert.KernelIdeal.Gen Cert.LibRowStages Cert.LibRowBlocks
open Idealize.ShloMosaic Idealize.ShloMosaic.ValueIdx Idealize.ShloMosaic.TcCoe
open Idealize.ShloMosaic.Pipeline (Dat)

variable (V : (c : Dev nD) → (b : Ref sig .tc) → Buf (Elt Ideal) ((c : Thread nD τ).loc b)) (c : Dev nD)

/-- The zero offset of a whole-block access. -/
theorem hz : (![0, 0] : Fin 2 → Nat) = fun _ => 0 := funext fun a => by fin_cases a <;> rfl

/-! ## Region 0: a block of rows times the whole weight matrix -/

/-- The body's payload: both operands narrowed (which changes nothing), multiplied into the zero accumulator. -/
theorem pay0_eq (x0 : Vec Ideal S5000x64 .f32) (x1 : Vec Ideal S64x128 .f32) : k0_pay1 x0 x1 = mm x0 x1 := by
  unfold k0_pay1
  exact matmul_eq_mm dot_S5000x64_S64x128_S5000x128_1_0_0_1_n_n rfl rfl rfl rfl rfl rfl none _ _

/-- The block indices over the grid: the left and the output windows move together down the rows, the right window stays. -/
theorem idx_facts0 : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0
    ∧ win0_2.index t (0 : Fin 2) ≤ 19 :=
  (by decide +kernel : ∀ t : Fin grid0.N, _)

/-- Every one of the 20 row blocks is some point's. -/
theorem idx_onto0 : ∀ q0 : Fin 20, ∃ t : Fin cfg0.N, win0_2.index t = ![q0.val, 0] :=
  (by decide +kernel : ∀ q0 : Fin 20, ∃ t : Fin grid0.N, win0_2.index t = ![q0.val, 0])

/-- An entry of a point's block is the array's entry at the block's embedding. -/
theorem iblk0_0_apply (t : Fin cfg0.N) (y : S5000x64.Idx) :
    (iblk0 V c 0 t : Vec Ideal S5000x64 .f32) y = (V c main_arg0 : S100000x64.Idx → EReal) (((cfg0.win 0).blk t).view.emb y) := by
  unfold iblk0
  rfl

theorem iblk0_1_apply (t : Fin cfg0.N) (y : S64x128.Idx) :
    (iblk0 V c 1 t : Vec Ideal S64x128 .f32) y = (V c main_arg3 : S64x128.Idx → EReal) (((cfg0.win 1).blk t).view.emb y) := by
  unfold iblk0
  rfl

/-- Point t writes back block t of the product of the whole arrays. -/
theorem flushed0_eq (t : Fin cfg0.N) :
    (dat0 (F := Ideal) V c).flushed 2 t
      = ((cfg0.win 2).blk t).view.read (Elt Ideal) (mm (V c main_arg0) (V c main_arg3) : S100000x128.Idx → EReal) := by
  show (cfg0.win 2).cut (grid0.coords t) ((dat0 V c).after 2 t) = _
  rw [after0_2]
  unfold out0_2
  rw [View.canon_unit_zero hz]
  simp only [View.ld_unit_zero (S := S5000x64) hz, View.ld_unit_zero (S := S64x128) hz]
  rw [pay0_eq]
  obtain ⟨e0, e1, e2, e3, e4, e5⟩ := idx_facts0 t
  funext j
  show mm (iblk0 V c 0 t : Vec Ideal S5000x64 .f32) (iblk0 V c 1 t : Vec Ideal S64x128 .f32) j
    = mm (V c main_arg0 : S100000x64.Idx → EReal) (V c main_arg3 : S64x128.Idx → EReal) (((cfg0.win 2).blk t).view.emb j)
  refine mm_block _ _ _ _ j _ (fun q => ?_) (fun q => ?_)
  · rw [iblk0_0_apply]
    congr 1
    funext a; apply Fin.ext
    match a with
    | ⟨0, _⟩ => show win0_0.index t (0 : Fin 2) * 5000 + 1 * (j 0).val = win0_2.index t (0 : Fin 2) * 5000 + 1 * (j 0).val; omega
    | ⟨1, _⟩ => show win0_0.index t (1 : Fin 2) * 64 + 1 * q.val = q.val; omega
  · rw [iblk0_1_apply]
    congr 1
    funext a; apply Fin.ext
    match a with
    | ⟨0, _⟩ => show win0_1.index t (0 : Fin 2) * 64 + 1 * q.val = q.val; omega
    | ⟨1, _⟩ => show win0_1.index t (1 : Fin 2) * 128 + 1 * (j 1).val = win0_2.index t (1 : Fin 2) * 128 + 1 * (j 1).val; omega

/-- An index is in point t's block iff each coordinate is in the block's range on its axis. -/
theorem mem_blk0 (t : Fin cfg0.N) (i : S100000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v31).slice (win0_2.rect t)).set ↔ _
  rw [View.set_slice_whole, Rect.mem_set_unit]
  exact Iff.rfl

/-- Row p lies in block p / 5000. -/
theorem cover0 (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  obtain ⟨t, ht⟩ := idx_onto0 ⟨(i 0).val / 5000, by omega⟩
  have q0 : win0_2.index t (0 : Fin 2) = (i 0).val / 5000 := congrFun ht 0
  have q1 : win0_2.index t (1 : Fin 2) = 0 := congrFun ht 1
  refine ⟨t, flush0_2 t, ?_⟩
  rw [mem_blk0]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

/-- The output array of region 0 ends holding the product of the two arrays it finds. -/
theorem array0 : ((dat0 (F := Ideal) V c).arrAt 2 cfg0.N : S100000x128.Idx → EReal) = mm (V c main_arg0) (V c main_arg3) :=
  (dat0 V c).arrAt_eq_of_cover 2 (mm (V c main_arg0) (V c main_arg3) : S100000x128.Idx → EReal) (fun t _ => flushed0_eq V c t) cover0

/-! ## Region 1: the bias row added to a block of rows, floored at zero -/

/-- The body's payload: the bias row spread over the rows and added, then the maximum against the zero word. -/
theorem pay1_eq (x0 : Vec Ideal S5000x128 .f32) (x1 : Vec Ideal S1x128 .f32) : k1_pay1 x0 x1 = relu (addRow x0 x1) := by
  unfold k1_pay1
  simp only [shapeCast_self]
  rw [addf_spread_eq_addRow broadcasts_S1x128_S5000x128 x0 x1]
  exact maximumf_zero_eq_relu _

/-- The block indices over the grid: the left and the output windows move together down the rows, the bias row stays. -/
theorem idx_facts1 : ∀ t : Fin cfg1.N, win1_0.index t (0 : Fin 2) = win1_2.index t (0 : Fin 2)
    ∧ win1_0.index t (1 : Fin 2) = 0
    ∧ win1_1.index t (0 : Fin 2) = 0
    ∧ win1_1.index t (1 : Fin 2) = 0
    ∧ win1_2.index t (1 : Fin 2) = 0
    ∧ win1_2.index t (0 : Fin 2) ≤ 19 :=
  (by decide +kernel : ∀ t : Fin grid1.N, _)

/-- Every one of the 20 row blocks is some point's. -/
theorem idx_onto1 : ∀ q0 : Fin 20, ∃ t : Fin cfg1.N, win1_2.index t = ![q0.val, 0] :=
  (by decide +kernel : ∀ q0 : Fin 20, ∃ t : Fin grid1.N, win1_2.index t = ![q0.val, 0])

/-- An entry of a point's block is the array's entry at the block's embedding. -/
theorem iblk1_0_apply (t : Fin cfg1.N) (y : S5000x128.Idx) :
    (iblk1 V c 0 t : Vec Ideal S5000x128 .f32) y = (V c main_v43 : S100000x128.Idx → EReal) (((cfg1.win 0).blk t).view.emb y) := by
  unfold iblk1
  rfl

theorem iblk1_1_apply (t : Fin cfg1.N) (y : S1x128.Idx) :
    (iblk1 V c 1 t : Vec Ideal S1x128 .f32) y = (V c main_v44 : S1x128.Idx → EReal) (((cfg1.win 1).blk t).view.emb y) := by
  unfold iblk1
  rfl

/-- Point t writes back block t of the floored sum of the whole arrays. -/
theorem flushed1_eq (t : Fin cfg1.N) :
    (dat1 (F := Ideal) V c).flushed 2 t
      = ((cfg1.win 2).blk t).view.read (Elt Ideal) (relu (addRow (V c main_v43) (V c main_v44)) : S100000x128.Idx → EReal) := by
  show (cfg1.win 2).cut (grid1.coords t) ((dat1 V c).after 2 t) = _
  rw [after1_2]
  unfold out1_2
  rw [View.canon_unit_zero hz]
  simp only [View.ld_unit_zero (S := S5000x128) hz, View.ld_unit_zero (S := S1x128) hz]
  rw [pay1_eq]
  obtain ⟨e0, e1, e2, e3, e4, e5⟩ := idx_facts1 t
  funext j
  show relu (addRow (iblk1 V c 0 t : Vec Ideal S5000x128 .f32) (iblk1 V c 1 t : Vec Ideal S1x128 .f32)) j
    = relu (addRow (V c main_v43 : S100000x128.Idx → EReal) (V c main_v44 : S1x128.Idx → EReal)) (((cfg1.win 2).blk t).view.emb j)
  refine relu_entry _ _ j _ (addRow_entry _ _ _ _ j _ ?_ ?_)
  · rw [iblk1_0_apply]
    refine congrArg (V c main_v43 : S100000x128.Idx → EReal) ?_
    funext a; apply Fin.ext
    match a with
    | ⟨0, _⟩ => show win1_0.index t (0 : Fin 2) * 5000 + 1 * (j 0).val = win1_2.index t (0 : Fin 2) * 5000 + 1 * (j 0).val; omega
    | ⟨1, _⟩ => show win1_0.index t (1 : Fin 2) * 128 + 1 * (j 1).val = win1_2.index t (1 : Fin 2) * 128 + 1 * (j 1).val; omega
  · rw [iblk1_1_apply]
    congr 1
    funext a; apply Fin.ext
    match a with
    | ⟨0, _⟩ => show win1_1.index t (0 : Fin 2) * 1 + 1 * (0 : Fin 1).val = (0 : Fin 1).val; omega
    | ⟨1, _⟩ => show win1_1.index t (1 : Fin 2) * 128 + 1 * (j 1).val = win1_2.index t (1 : Fin 2) * 128 + 1 * (j 1).val; omega

/-- An index is in point t's block iff each coordinate is in the block's range on its axis. -/
theorem mem_blk1 (t : Fin cfg1.N) (i : S100000x128.Idx) :
    i ∈ ((cfg1.win 2).blk t).view.set ↔ ∀ a : Fin 2, win1_2.index t a * S5000x128.size a ≤ (i a).val ∧ (i a).val < win1_2.index t a * S5000x128.size a + S5000x128.size a := by
  show i ∈ ((View.whole main_v45).slice (win1_2.rect t)).set ↔ _
  rw [View.set_slice_whole, Rect.mem_set_unit]
  exact Iff.rfl

/-- Row p lies in block p / 5000. -/
theorem cover1 (i : S100000x128.Idx) :
    ∃ t : Fin cfg1.N, (cfg1.win 2).flush t = true ∧ i ∈ ((cfg1.win 2).blk t).view.set := by
  have hi0 : (i 0).val < 100000 := (i 0).isLt
  have hi1 : (i 1).val < 128 := (i 1).isLt
  obtain ⟨t, ht⟩ := idx_onto1 ⟨(i 0).val / 5000, by omega⟩
  have q0 : win1_2.index t (0 : Fin 2) = (i 0).val / 5000 := congrFun ht 0
  have q1 : win1_2.index t (1 : Fin 2) = 0 := congrFun ht 1
  refine ⟨t, flush1_2 t, ?_⟩
  rw [mem_blk1]
  intro a
  match a with
  | ⟨0, _⟩ => show win1_2.index t (0 : Fin 2) * 5000 ≤ (i 0).val ∧ (i 0).val < win1_2.index t (0 : Fin 2) * 5000 + 5000; omega
  | ⟨1, _⟩ => show win1_2.index t (1 : Fin 2) * 128 ≤ (i 1).val ∧ (i 1).val < win1_2.index t (1 : Fin 2) * 128 + 128; omega

/-- The output array of region 1 ends holding the left array plus the bias row, floored at zero. -/
theorem array1 : ((dat1 (F := Ideal) V c).arrAt 2 cfg1.N : S100000x128.Idx → EReal) = relu (addRow (V c main_v43) (V c main_v44)) :=
  (dat1 V c).arrAt_eq_of_cover 2 (relu (addRow (V c main_v43) (V c main_v44)) : S100000x128.Idx → EReal) (fun t _ => flushed1_eq V c t) cover1

/-! ## Region 2: a block of rows times the whole weight matrix -/

/-- The body's payload: both operands narrowed (which changes nothing), multiplied into the zero accumulator. -/
theorem pay2_eq (x0 : Vec Ideal S5000x128 .f32) (x1 : Vec Ideal S128x16 .f32) : k2_pay1 x0 x1 = mm x0 x1 := by
  unfold k2_pay1
  simp only [shapeCast_self]
  exact matmul_eq_mm dot_S5000x128_S128x16_S5000x16_1_0_0_1_n_n rfl rfl rfl rfl rfl rfl none _ _

/-- The block indices over the grid: the left and the output windows move together down the rows, the right window stays. -/
theorem idx_facts2 : ∀ t : Fin cfg2.N, win2_0.index t (0 : Fin 2) = win2_2.index t (0 : Fin 2)
    ∧ win2_0.index t (1 : Fin 2) = 0
    ∧ win2_1.index t (0 : Fin 2) = 0
    ∧ win2_1.index t (1 : Fin 2) = 0
    ∧ win2_2.index t (1 : Fin 2) = 0
    ∧ win2_2.index t (0 : Fin 2) ≤ 19 :=
  (by decide +kernel : ∀ t : Fin grid2.N, _)

/-- Every one of the 20 row blocks is some point's. -/
theorem idx_onto2 : ∀ q0 : Fin 20, ∃ t : Fin cfg2.N, win2_2.index t = ![q0.val, 0] :=
  (by decide +kernel : ∀ q0 : Fin 20, ∃ t : Fin grid2.N, win2_2.index t = ![q0.val, 0])

/-- An entry of a point's block is the array's entry at the block's embedding. -/
theorem iblk2_0_apply (t : Fin cfg2.N) (y : S5000x128.Idx) :
    (iblk2 V c 0 t : Vec Ideal S5000x128 .f32) y = (V c main_v45 : S100000x128.Idx → EReal) (((cfg2.win 0).blk t).view.emb y) := by
  unfold iblk2
  rfl

theorem iblk2_1_apply (t : Fin cfg2.N) (y : S128x16.Idx) :
    (iblk2 V c 1 t : Vec Ideal S128x16 .f32) y = (V c main_arg5 : S128x16.Idx → EReal) (((cfg2.win 1).blk t).view.emb y) := by
  unfold iblk2
  rfl

/-- Point t writes back block t of the product of the whole arrays. -/
theorem flushed2_eq (t : Fin cfg2.N) :
    (dat2 (F := Ideal) V c).flushed 2 t
      = ((cfg2.win 2).blk t).view.read (Elt Ideal) (mm (V c main_v45) (V c main_arg5) : S100000x16.Idx → EReal) := by
  show (cfg2.win 2).cut (grid2.coords t) ((dat2 V c).after 2 t) = _
  rw [after2_2]
  unfold out2_2
  rw [View.canon_unit_zero hz]
  simp only [View.ld_unit_zero (S := S5000x128) hz, View.ld_unit_zero (S := S128x16) hz]
  rw [pay2_eq]
  obtain ⟨e0, e1, e2, e3, e4, e5⟩ := idx_facts2 t
  funext j
  show mm (iblk2 V c 0 t : Vec Ideal S5000x128 .f32) (iblk2 V c 1 t : Vec Ideal S128x16 .f32) j
    = mm (V c main_v45 : S100000x128.Idx → EReal) (V c main_arg5 : S128x16.Idx → EReal) (((cfg2.win 2).blk t).view.emb j)
  refine mm_block _ _ _ _ j _ (fun q => ?_) (fun q => ?_)
  · rw [iblk2_0_apply]
    congr 1
    funext a; apply Fin.ext
    match a with
    | ⟨0, _⟩ => show win2_0.index t (0 : Fin 2) * 5000 + 1 * (j 0).val = win2_2.index t (0 : Fin 2) * 5000 + 1 * (j 0).val; omega
    | ⟨1, _⟩ => show win2_0.index t (1 : Fin 2) * 128 + 1 * q.val = q.val; omega
  · rw [iblk2_1_apply]
    congr 1
    funext a; apply Fin.ext
    match a with
    | ⟨0, _⟩ => show win2_1.index t (0 : Fin 2) * 128 + 1 * q.val = q.val; omega
    | ⟨1, _⟩ => show win2_1.index t (1 : Fin 2) * 16 + 1 * (j 1).val = win2_2.index t (1 : Fin 2) * 16 + 1 * (j 1).val; omega

/-- An index is in point t's block iff each coordinate is in the block's range on its axis. -/
theorem mem_blk2 (t : Fin cfg2.N) (i : S100000x16.Idx) :
    i ∈ ((cfg2.win 2).blk t).view.set ↔ ∀ a : Fin 2, win2_2.index t a * S5000x16.size a ≤ (i a).val ∧ (i a).val < win2_2.index t a * S5000x16.size a + S5000x16.size a := by
  show i ∈ ((View.whole main_v46).slice (win2_2.rect t)).set ↔ _
  rw [View.set_slice_whole, Rect.mem_set_unit]
  exact Iff.rfl

/-- Row p lies in block p / 5000. -/
theorem cover2 (i : S100000x16.Idx) :
    ∃ t : Fin cfg2.N, (cfg2.win 2).flush t = true ∧ i ∈ ((cfg2.win 2).blk t).view.set := by
  have hi0 : (i 0).val < 100000 := (i 0).isLt
  have hi1 : (i 1).val < 16 := (i 1).isLt
  obtain ⟨t, ht⟩ := idx_onto2 ⟨(i 0).val / 5000, by omega⟩
  have q0 : win2_2.index t (0 : Fin 2) = (i 0).val / 5000 := congrFun ht 0
  have q1 : win2_2.index t (1 : Fin 2) = 0 := congrFun ht 1
  refine ⟨t, flush2_2 t, ?_⟩
  rw [mem_blk2]
  intro a
  match a with
  | ⟨0, _⟩ => show win2_2.index t (0 : Fin 2) * 5000 ≤ (i 0).val ∧ (i 0).val < win2_2.index t (0 : Fin 2) * 5000 + 5000; omega
  | ⟨1, _⟩ => show win2_2.index t (1 : Fin 2) * 16 ≤ (i 1).val ∧ (i 1).val < win2_2.index t (1 : Fin 2) * 16 + 16; omega

/-- The output array of region 2 ends holding the product of the two arrays it finds. -/
theorem array2 : ((dat2 (F := Ideal) V c).arrAt 2 cfg2.N : S100000x16.Idx → EReal) = mm (V c main_v45) (V c main_arg5) :=
  (dat2 V c).arrAt_eq_of_cover 2 (mm (V c main_v45) (V c main_arg5) : S100000x16.Idx → EReal) (fun t _ => flushed2_eq V c t) cover2

/-! ## Region 3: the bias row added to a block of rows -/

/-- The body's payload: the bias row spread over the rows and added. -/
theorem pay3_eq (x0 : Vec Ideal S5000x16 .f32) (x1 : Vec Ideal S1x16 .f32) : k3_pay1 x0 x1 = addRow x0 x1 := by
  unfold k3_pay1
  simp only [shapeCast_self]
  exact addf_spread_eq_addRow broadcasts_S1x16_S5000x16 x0 x1

/-- The block indices over the grid: the left and the output windows move together down the rows, the bias row stays. -/
theorem idx_facts3 : ∀ t : Fin cfg3.N, win3_0.index t (0 : Fin 2) = win3_2.index t (0 : Fin 2)
    ∧ win3_0.index t (1 : Fin 2) = 0
    ∧ win3_1.index t (0 : Fin 2) = 0
    ∧ win3_1.index t (1 : Fin 2) = 0
    ∧ win3_2.index t (1 : Fin 2) = 0
    ∧ win3_2.index t (0 : Fin 2) ≤ 19 :=
  (by decide +kernel : ∀ t : Fin grid3.N, _)

/-- Every one of the 20 row blocks is some point's. -/
theorem idx_onto3 : ∀ q0 : Fin 20, ∃ t : Fin cfg3.N, win3_2.index t = ![q0.val, 0] :=
  (by decide +kernel : ∀ q0 : Fin 20, ∃ t : Fin grid3.N, win3_2.index t = ![q0.val, 0])

/-- An entry of a point's block is the array's entry at the block's embedding. -/
theorem iblk3_0_apply (t : Fin cfg3.N) (y : S5000x16.Idx) :
    (iblk3 V c 0 t : Vec Ideal S5000x16 .f32) y = (V c main_v58 : S100000x16.Idx → EReal) (((cfg3.win 0).blk t).view.emb y) := by
  unfold iblk3
  rfl

theorem iblk3_1_apply (t : Fin cfg3.N) (y : S1x16.Idx) :
    (iblk3 V c 1 t : Vec Ideal S1x16 .f32) y = (V c main_v59 : S1x16.Idx → EReal) (((cfg3.win 1).blk t).view.emb y) := by
  unfold iblk3
  rfl

/-- Point t writes back block t of the sum of the whole arrays. -/
theorem flushed3_eq (t : Fin cfg3.N) :
    (dat3 (F := Ideal) V c).flushed 2 t
      = ((cfg3.win 2).blk t).view.read (Elt Ideal) (addRow (V c main_v58) (V c main_v59) : S100000x16.Idx → EReal) := by
  show (cfg3.win 2).cut (grid3.coords t) ((dat3 V c).after 2 t) = _
  rw [after3_2]
  unfold out3_2
  rw [View.canon_unit_zero hz]
  simp only [View.ld_unit_zero (S := S5000x16) hz, View.ld_unit_zero (S := S1x16) hz]
  rw [pay3_eq]
  obtain ⟨e0, e1, e2, e3, e4, e5⟩ := idx_facts3 t
  funext j
  show addRow (iblk3 V c 0 t : Vec Ideal S5000x16 .f32) (iblk3 V c 1 t : Vec Ideal S1x16 .f32) j
    = addRow (V c main_v58 : S100000x16.Idx → EReal) (V c main_v59 : S1x16.Idx → EReal) (((cfg3.win 2).blk t).view.emb j)
  refine addRow_entry _ _ _ _ j _ ?_ ?_
  · rw [iblk3_0_apply]
    refine congrArg (V c main_v58 : S100000x16.Idx → EReal) ?_
    funext a; apply Fin.ext
    match a with
    | ⟨0, _⟩ => show win3_0.index t (0 : Fin 2) * 5000 + 1 * (j 0).val = win3_2.index t (0 : Fin 2) * 5000 + 1 * (j 0).val; omega
    | ⟨1, _⟩ => show win3_0.index t (1 : Fin 2) * 16 + 1 * (j 1).val = win3_2.index t (1 : Fin 2) * 16 + 1 * (j 1).val; omega
  · rw [iblk3_1_apply]
    congr 1
    funext a; apply Fin.ext
    match a with
    | ⟨0, _⟩ => show win3_1.index t (0 : Fin 2) * 1 + 1 * (0 : Fin 1).val = (0 : Fin 1).val; omega
    | ⟨1, _⟩ => show win3_1.index t (1 : Fin 2) * 16 + 1 * (j 1).val = win3_2.index t (1 : Fin 2) * 16 + 1 * (j 1).val; omega

/-- An index is in point t's block iff each coordinate is in the block's range on its axis. -/
theorem mem_blk3 (t : Fin cfg3.N) (i : S100000x16.Idx) :
    i ∈ ((cfg3.win 2).blk t).view.set ↔ ∀ a : Fin 2, win3_2.index t a * S5000x16.size a ≤ (i a).val ∧ (i a).val < win3_2.index t a * S5000x16.size a + S5000x16.size a := by
  show i ∈ ((View.whole main_v60).slice (win3_2.rect t)).set ↔ _
  rw [View.set_slice_whole, Rect.mem_set_unit]
  exact Iff.rfl

/-- Row p lies in block p / 5000. -/
theorem cover3 (i : S100000x16.Idx) :
    ∃ t : Fin cfg3.N, (cfg3.win 2).flush t = true ∧ i ∈ ((cfg3.win 2).blk t).view.set := by
  have hi0 : (i 0).val < 100000 := (i 0).isLt
  have hi1 : (i 1).val < 16 := (i 1).isLt
  obtain ⟨t, ht⟩ := idx_onto3 ⟨(i 0).val / 5000, by omega⟩
  have q0 : win3_2.index t (0 : Fin 2) = (i 0).val / 5000 := congrFun ht 0
  have q1 : win3_2.index t (1 : Fin 2) = 0 := congrFun ht 1
  refine ⟨t, flush3_2 t, ?_⟩
  rw [mem_blk3]
  intro a
  match a with
  | ⟨0, _⟩ => show win3_2.index t (0 : Fin 2) * 5000 ≤ (i 0).val ∧ (i 0).val < win3_2.index t (0 : Fin 2) * 5000 + 5000; omega
  | ⟨1, _⟩ => show win3_2.index t (1 : Fin 2) * 16 ≤ (i 1).val ∧ (i 1).val < win3_2.index t (1 : Fin 2) * 16 + 16; omega

/-- The output array of region 3 ends holding the left array plus the bias row. -/
theorem array3 : ((dat3 (F := Ideal) V c).arrAt 2 cfg3.N : S100000x16.Idx → EReal) = addRow (V c main_v58) (V c main_v59) :=
  (dat3 V c).arrAt_eq_of_cover 2 (addRow (V c main_v58) (V c main_v59) : S100000x16.Idx → EReal) (fun t _ => flushed3_eq V c t) cover3

end Cert.KernelIdeal.RegionArrays

end
-- ==== Proof.KernelValue.lean ====
/-
  What the idealized kernel program leaves in its result buffer: the network function of its seven arguments.

  The program's run is a fold of buffer contents through eleven segments.  Three stretches of host operations build the
  edge lists with their self loops and the edge weights.  The first kernel leaves the product of the node features with
  the first weight matrix (a row-wise stage on blocks of 5000 rows: the stage of the whole arrays).  A stretch of host
  operations aggregates it along the edges and lays the first bias vector out as a row.  The second kernel adds the bias
  row and floors at zero, the third multiplies by the second weight matrix.  A stretch of host operations aggregates
  again and lays the second bias out as a row; the fourth kernel adds it.  Two last stretches average over each graph
  and take the logarithm of the softmax.

  A kernel changes only its output array, and a host operation only the buffer it writes, so the edge lists, the edge
  weights and the arguments are found unchanged wherever they are read again; each stage's value is read off the fold in
  terms of the launch contents of the arguments, and the last one is the network function.
-/
import proofs.«154275_j65085934404070_1_alg».proof.Proof.Gen.KernelIdeal.Frame
import proofs.«154275_j65085934404070_1_alg».proof.Proof.LibJoinTwo
import proofs.«154275_j65085934404070_1_alg».proof.Proof.LibRowStages
import proofs.«154275_j65085934404070_1_alg».proof.Proof.Glue
import proofs.«154275_j65085934404070_1_alg».proof.Proof.LibTypedRefs
import proofs.«154275_j65085934404070_1_alg».proof.Proof.RegionArrays
import Idealize.ShloMosaic.Lib.StableHlo.Run
import Idealize.ShloMosaic.PureOps.Ideal

set_option maxRecDepth 16384

noncomputable section

namespace Cert.KernelIdeal.Chain

open Cert.KernelIdeal Cert.KernelIdeal.Gen Cert.Gcn Cert.LibRowStages Cert.LibJoinTwo
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

set_option quotPrecheck false

local notation "dr" => Proc.devRef (τ := τ) (sig := sig) Proc.tc
local notation "x0" => m ((c : Thread nD τ).loc main_arg0)
local notation "x1" => m ((c : Thread nD τ).loc main_arg1)
local notation "x2" => m ((c : Thread nD τ).loc main_arg2)
local notation "x3" => m ((c : Thread nD τ).loc main_arg3)
local notation "x4" => m ((c : Thread nD τ).loc main_arg4)
local notation "x5" => m ((c : Thread nD τ).loc main_arg5)
local notation "x6" => m ((c : Thread nD τ).loc main_arg6)
local notation "𝐬" => srcOf (m ((c : Thread nD τ).loc main_arg1))
local notation "𝐝" => dstOf (m ((c : Thread nD τ).loc main_arg1))
local notation "𝐧" => col (normOf (srcOf (m ((c : Thread nD τ).loc main_arg1))) (dstOf (m ((c : Thread nD τ).loc main_arg1))))

/-- The three stretches of host operations before the first kernel, from the launch contents. -/
local notation "pre3" b => StableHlo.after hostOps0_2 (StableHlo.after hostOps0_1 (StableHlo.after hostOps0 (W0 m ρ c))) (dr b)

/-! ## Before the first kernel: the edge lists, the edge weights, and the arguments as launched -/

local notation "pre1" b => StableHlo.after hostOps0 (W0 m ρ c) (dr b)
local notation "pre2" b => StableHlo.after hostOps0_1 (StableHlo.after hostOps0 (W0 m ρ c)) (dr b)

/-- The zero vector the degree is compared against and the inverse root falls back to. -/
local notation "𝐳" => broadcastInDim S100000 ![] Facts₀.bcast_S_S100000 (constant (F := Ideal) S_ .f32 0x00000000#32)

theorem pos1 : W1 m ρ c (dr main_v12) = cmpf .ogt (degOf 𝐝) 𝐳 := by show (pre1 main_v12) = _; host_results; rfl
theorem rsq1 : W1 m ρ c (dr main_v13) = Host.rsqrt (degOf 𝐝) := by show (pre1 main_v13) = _; host_results; rfl
theorem zero1 : W1 m ρ c (dr main_cst_2) = constant (F := Ideal) S_ .f32 0x00000000#32 := by
  show (pre1 main_cst_2) = _; host_results

/-- The selection between the inverse root and zero, whatever the buffers hold when it is made. -/
theorem select_step (U : Valuation τ sig (Elt Ideal)) :
    StableHlo.after hostOps0_1 U (dr main_v14)
      = select (U (dr main_v12)) (U (dr main_v13)) (broadcastInDim S100000 ![] Facts₀.bcast_S_S100000 (U (dr main_cst_2))) := by
  host_results; rfl

theorem dinv2 : W2 m ρ c (dr main_v14) = dinvOf 𝐝 := by
  refine (select_step (W1 m ρ c)).trans ?_
  rw [pos1, rsq1, zero1]; rfl

theorem src2 : W2 m ρ c (dr main_v5) = 𝐬 := by show (pre2 main_v5) = _; host_results; rfl
theorem dst2 : W2 m ρ c (dr main_v6) = 𝐝 := by show (pre2 main_v6) = _; host_results; rfl

/-- The edge weights as a column, whatever the buffers hold when they are computed. -/
theorem weights_step (U : Valuation τ sig (Elt Ideal)) :
    StableHlo.after hostOps0_2 U (dr main_v30)
      = (col (mulf
          (Host.gather gather_S100000_S1300000x1_S1300000_n_0_n_n_0_1_1 (U (dr main_v14) : FVec Ideal S100000 .f32) (col (wrap (U (dr main_v5)))))
          (Host.gather gather_S100000_S1300000x1_S1300000_n_0_n_n_0_1_1 (U (dr main_v14) : FVec Ideal S100000 .f32) (col (wrap (U (dr main_v6))))))
          : FVec Ideal S1300000x1 .f32) := by
  host_results; rfl

theorem norm3 : W3 m ρ c (dr main_v30) = 𝐧 := by
  refine (weights_step (W2 m ρ c)).trans ?_
  rw [dinv2, src2, dst2]; rfl

theorem src3 : W3 m ρ c (dr main_v5) = 𝐬 := by show (pre3 main_v5) = _; host_results; rfl
theorem dst3 : W3 m ρ c (dr main_v6) = 𝐝 := by show (pre3 main_v6) = _; host_results; rfl
theorem arg0_3 : W3 m ρ c (dr main_arg0) = x0 := by show (pre3 main_arg0) = _; host_results
theorem arg3_3 : W3 m ρ c (dr main_arg3) = x3 := by show (pre3 main_arg3) = _; host_results
theorem arg4_3 : W3 m ρ c (dr main_arg4) = x4 := by show (pre3 main_arg4) = _; host_results
theorem arg5_3 : W3 m ρ c (dr main_arg5) = x5 := by show (pre3 main_arg5) = _; host_results
theorem arg6_3 : W3 m ρ c (dr main_arg6) = x6 := by show (pre3 main_arg6) = _; host_results
theorem arg2_3 : W3 m ρ c (dr main_arg2) = x2 := by show (pre3 main_arg2) = _; host_results

/-! ## The first kernel: the product of the node features with the first weights -/

theorem h1_4 : W4 m ρ c (dr main_v31) = mm (n := 100000) (k := 64) (d := 128) x0 x3 := by
  refine (W4_arr m ρ c 2).trans ((RegionArrays.array0 (V3 m ρ) c).trans ?_)
  show mm (n := 100000) (k := 64) (d := 128) (W3 m ρ c (dr main_arg0)) (W3 m ρ c (dr main_arg3)) = _
  rw [arg0_3, arg3_3]

theorem src4 : W4 m ρ c (dr main_v5) = 𝐬 := (W4_of_ne m ρ c main_v5 (by decide)).trans (src3 m ρ c)
theorem dst4 : W4 m ρ c (dr main_v6) = 𝐝 := (W4_of_ne m ρ c main_v6 (by decide)).trans (dst3 m ρ c)
theorem norm4 : W4 m ρ c (dr main_v30) = 𝐧 := (W4_of_ne m ρ c main_v30 (by decide)).trans (norm3 m ρ c)
theorem arg4_4 : W4 m ρ c (dr main_arg4) = x4 := (W4_of_ne m ρ c main_arg4 (by decide)).trans (arg4_3 m ρ c)
theorem arg5_4 : W4 m ρ c (dr main_arg5) = x5 := (W4_of_ne m ρ c main_arg5 (by decide)).trans (arg5_3 m ρ c)
theorem arg6_4 : W4 m ρ c (dr main_arg6) = x6 := (W4_of_ne m ρ c main_arg6 (by decide)).trans (arg6_3 m ρ c)
theorem arg2_4 : W4 m ρ c (dr main_arg2) = x2 := (W4_of_ne m ρ c main_arg2 (by decide)).trans (arg2_3 m ρ c)

/-! ## Between the first and second kernels: the first aggregation, and the first bias as a row -/

local notation "mid5" b => StableHlo.after hostOps1 (W4 m ρ c) (dr b)

theorem agg1_5 : W5 m ρ c (dr main_v43) = agg128 (mm (n := 100000) (k := 64) (d := 128) x0 x3) 𝐬 𝐝 𝐧 := by
  have e : (mid5 main_v43) = agg128 (W4 m ρ c (dr main_v31)) (W4 m ρ c (dr main_v5)) (W4 m ρ c (dr main_v6)) (W4 m ρ c (dr main_v30)) := by
    host_results; rfl
  refine e.trans ?_
  rw [h1_4, src4, dst4, norm4]

theorem b1_5 : W5 m ρ c (dr main_v44) = shapeCast S1x128 x4 Facts₀.shapeCasts_S128_S1x128 := by
  have e : (mid5 main_v44) = shapeCast S1x128 (W4 m ρ c (dr main_arg4)) Facts₀.shapeCasts_S128_S1x128 := by
    host_results; rfl
  refine e.trans ?_
  rw [arg4_4]

theorem src5 : W5 m ρ c (dr main_v5) = 𝐬 := by
  refine Eq.trans (?_ : (mid5 main_v5) = W4 m ρ c (dr main_v5)) (src4 m ρ c); host_results
theorem dst5 : W5 m ρ c (dr main_v6) = 𝐝 := by
  refine Eq.trans (?_ : (mid5 main_v6) = W4 m ρ c (dr main_v6)) (dst4 m ρ c); host_results
theorem norm5 : W5 m ρ c (dr main_v30) = 𝐧 := by
  refine Eq.trans (?_ : (mid5 main_v30) = W4 m ρ c (dr main_v30)) (norm4 m ρ c); host_results
theorem arg5_5 : W5 m ρ c (dr main_arg5) = x5 := by
  refine Eq.trans (?_ : (mid5 main_arg5) = W4 m ρ c (dr main_arg5)) (arg5_4 m ρ c); host_results
theorem arg6_5 : W5 m ρ c (dr main_arg6) = x6 := by
  refine Eq.trans (?_ : (mid5 main_arg6) = W4 m ρ c (dr main_arg6)) (arg6_4 m ρ c); host_results
theorem arg2_5 : W5 m ρ c (dr main_arg2) = x2 := by
  refine Eq.trans (?_ : (mid5 main_arg2) = W4 m ρ c (dr main_arg2)) (arg2_4 m ρ c); host_results

/-! ## The second kernel: the first bias row added, then the floor at zero -/

local notation "𝐡1" => relu (n := 100000) (k := 128) (addRow (n := 100000) (k := 128)
  (agg128 (mm (n := 100000) (k := 64) (d := 128) (m ((c : Thread nD τ).loc main_arg0)) (m ((c : Thread nD τ).loc main_arg3)))
    (srcOf (m ((c : Thread nD τ).loc main_arg1))) (dstOf (m ((c : Thread nD τ).loc main_arg1)))
    (col (normOf (srcOf (m ((c : Thread nD τ).loc main_arg1))) (dstOf (m ((c : Thread nD τ).loc main_arg1))))))
  (shapeCast S1x128 (m ((c : Thread nD τ).loc main_arg4)) Facts₀.shapeCasts_S128_S1x128))

theorem h1p_6 : W6 m ρ c (dr main_v45) = 𝐡1 := by
  refine (W6_arr m ρ c 2).trans ((RegionArrays.array1 (V5 m ρ) c).trans ?_)
  show relu (n := 100000) (k := 128) (addRow (n := 100000) (k := 128) (W5 m ρ c (dr main_v43)) (W5 m ρ c (dr main_v44))) = _
  rw [agg1_5, b1_5]

theorem src6 : W6 m ρ c (dr main_v5) = 𝐬 := (W6_of_ne m ρ c main_v5 (by decide)).trans (src5 m ρ c)
theorem dst6 : W6 m ρ c (dr main_v6) = 𝐝 := (W6_of_ne m ρ c main_v6 (by decide)).trans (dst5 m ρ c)
theorem norm6 : W6 m ρ c (dr main_v30) = 𝐧 := (W6_of_ne m ρ c main_v30 (by decide)).trans (norm5 m ρ c)
theorem arg5_6 : W6 m ρ c (dr main_arg5) = x5 := (W6_of_ne m ρ c main_arg5 (by decide)).trans (arg5_5 m ρ c)
theorem arg6_6 : W6 m ρ c (dr main_arg6) = x6 := (W6_of_ne m ρ c main_arg6 (by decide)).trans (arg6_5 m ρ c)
theorem arg2_6 : W6 m ρ c (dr main_arg2) = x2 := (W6_of_ne m ρ c main_arg2 (by decide)).trans (arg2_5 m ρ c)

/-! ## The third kernel: the product with the second weights -/

local notation "𝐡2" => mm (n := 100000) (k := 128) (d := 16) 𝐡1 (m ((c : Thread nD τ).loc main_arg5))

theorem h2_7 : W7 m ρ c (dr main_v46) = 𝐡2 := by
  refine (W7_arr m ρ c 2).trans ((RegionArrays.array2 (V6 m ρ) c).trans ?_)
  show mm (n := 100000) (k := 128) (d := 16) (W6 m ρ c (dr main_v45)) (W6 m ρ c (dr main_arg5)) = _
  rw [h1p_6, arg5_6]

theorem src7 : W7 m ρ c (dr main_v5) = 𝐬 := (W7_of_ne m ρ c main_v5 (by decide)).trans (src6 m ρ c)
theorem dst7 : W7 m ρ c (dr main_v6) = 𝐝 := (W7_of_ne m ρ c main_v6 (by decide)).trans (dst6 m ρ c)
theorem norm7 : W7 m ρ c (dr main_v30) = 𝐧 := (W7_of_ne m ρ c main_v30 (by decide)).trans (norm6 m ρ c)
theorem arg6_7 : W7 m ρ c (dr main_arg6) = x6 := (W7_of_ne m ρ c main_arg6 (by decide)).trans (arg6_6 m ρ c)
theorem arg2_7 : W7 m ρ c (dr main_arg2) = x2 := (W7_of_ne m ρ c main_arg2 (by decide)).trans (arg2_6 m ρ c)

/-! ## Between the third and fourth kernels: the second aggregation, and the second bias as a row -/

local notation "mid8" b => StableHlo.after hostOps3 (W7 m ρ c) (dr b)

theorem agg2_8 : W8 m ρ c (dr main_v58) = agg16 𝐡2 𝐬 𝐝 𝐧 := by
  have e : (mid8 main_v58) = agg16 (W7 m ρ c (dr main_v46)) (W7 m ρ c (dr main_v5)) (W7 m ρ c (dr main_v6)) (W7 m ρ c (dr main_v30)) := by
    host_results; rfl
  refine e.trans ?_
  rw [h2_7, src7, dst7, norm7]

theorem b2_8 : W8 m ρ c (dr main_v59) = shapeCast S1x16 x6 Facts₀.shapeCasts_S16_S1x16 := by
  have e : (mid8 main_v59) = shapeCast S1x16 (W7 m ρ c (dr main_arg6)) Facts₀.shapeCasts_S16_S1x16 := by
    host_results; rfl
  refine e.trans ?_
  rw [arg6_7]

theorem arg2_8 : W8 m ρ c (dr main_arg2) = x2 := by
  refine Eq.trans (?_ : (mid8 main_arg2) = W7 m ρ c (dr main_arg2)) (arg2_7 m ρ c); host_results

/-! ## The fourth kernel: the second bias row added -/

theorem h2p_9 : W9 m ρ c (dr main_v60)
    = addRow (n := 100000) (k := 16) (agg16 𝐡2 𝐬 𝐝 𝐧) (shapeCast S1x16 x6 Facts₀.shapeCasts_S16_S1x16) := by
  refine (W9_arr m ρ c 2).trans ((RegionArrays.array3 (V8 m ρ) c).trans ?_)
  show addRow (n := 100000) (k := 16) (W8 m ρ c (dr main_v58)) (W8 m ρ c (dr main_v59)) = _
  rw [agg2_8, b2_8]

theorem arg2_9 : W9 m ρ c (dr main_arg2) = x2 := (W9_of_ne m ρ c main_arg2 (by decide)).trans (arg2_8 m ρ c)

/-! ## After the last kernel: the mean over each graph and the logarithm of the softmax -/

/-- The result buffer, at the end of the fold, holds the network function of the seven arguments as launched. -/
theorem result : W11 m ρ c (dr main_v73) = net x0 x1 x2 x3 x4 x5 x6 := by
  have e : StableHlo.after hostOps4_1 (StableHlo.after hostOps4 (W9 m ρ c)) (dr main_v73)
      = pool (W9 m ρ c (dr main_v60)) (W9 m ρ c (dr main_arg2)) := by
    host_results; simp only [Cert.LibTypedRefs.ofBuf_toBuf]; rfl
  refine e.trans ?_
  rw [h2p_9, arg2_9]
  rfl

end Cert.KernelIdeal.Chain

end
-- ==== Proof.LibConcatCongr.lean ====
/-
  A TWO-PIECE CONCATENATION RESPECTS EQUALITY OF ITS PIECES, in the form of a congruence rule for the simplifier. Each
  piece of a concatenation is the second component of a pair whose first component is the piece's shape, so a
  rewriting pass does not enter it on its own; with this rule it does, and a chain of host operations that ends in a
  concatenation is read in one pass.
-/
import Idealize.ShloMosaic.PureOps.ShapeOps

namespace Cert.LibConcatCongr

open Idealize.ShloMosaic

/-- Two pieces joined along an axis: equal pieces give equal joins. (Not tagged here: a module that wants the
    simplifier to use it says so locally.) -/
theorem concatenate_pair_congr {α : Type} {t s₁ s₂ : Shape} (a : Fin t.rank) (x₁ x₁' : s₁.Idx → α)
    (x₂ x₂' : s₂.Idx → α) (h : Shape.Concatenates [s₁, s₂] t a) (e₁ : x₁ = x₁') (e₂ : x₂ = x₂') :
    concatenate t a [⟨s₁, x₁⟩, ⟨s₂, x₂⟩] h = concatenate t a [⟨s₁, x₁'⟩, ⟨s₂, x₂'⟩] h := by
  subst e₁ e₂; rfl

end Cert.LibConcatCongr
-- ==== Proof.ReferenceValue.lean ====
/-
  The reference program's result is the network function of its arguments.

  The reference applies, to the whole arrays, the same host operations the glue functions are spelt with; its two
  products are contractions of a row index with a column index, its bias vectors are placed as one-row matrices and
  spread over the rows, and its floor is the maximum against a splat of the zero word.  On the extended reals these are
  the matrix product, the bias row added to every row and the floor at zero, so the reference's composed term is the
  network function.  Nothing is distributed or cancelled: the equation holds at the infinities too.
-/
import proofs.«154275_j65085934404070_1_alg».proof.Proof.ReferenceRun
import proofs.«154275_j65085934404070_1_alg».proof.Proof.Gen.KernelIdeal
import proofs.«154275_j65085934404070_1_alg».proof.Proof.Glue
import proofs.«154275_j65085934404070_1_alg».proof.Proof.LibRowStages

set_option maxRecDepth 16384

noncomputable section

namespace Cert.ReferenceIdeal.RefValue

open Cert.Gcn Cert.LibRowStages
open Idealize.ShloMosaic Idealize.ShloMosaic.TcCoe Idealize.SL.Sem

variable (m : (ℓ : Loc Cert.ReferenceIdeal.nD Cert.ReferenceIdeal.τ Cert.ReferenceIdeal.sig) → Buf (Elt Ideal) ℓ)
  (c : Dev Cert.ReferenceIdeal.nD)

set_option quotPrecheck false

local notation "y0" => m ((c.tc : Thread Cert.ReferenceIdeal.nD Cert.ReferenceIdeal.τ).loc Cert.ReferenceIdeal.main_arg0)
local notation "y1" => m ((c.tc : Thread Cert.ReferenceIdeal.nD Cert.ReferenceIdeal.τ).loc Cert.ReferenceIdeal.main_arg1)
local notation "y2" => m ((c.tc : Thread Cert.ReferenceIdeal.nD Cert.ReferenceIdeal.τ).loc Cert.ReferenceIdeal.main_arg2)
local notation "y3" => m ((c.tc : Thread Cert.ReferenceIdeal.nD Cert.ReferenceIdeal.τ).loc Cert.ReferenceIdeal.main_arg3)
local notation "y4" => m ((c.tc : Thread Cert.ReferenceIdeal.nD Cert.ReferenceIdeal.τ).loc Cert.ReferenceIdeal.main_arg4)
local notation "y5" => m ((c.tc : Thread Cert.ReferenceIdeal.nD Cert.ReferenceIdeal.τ).loc Cert.ReferenceIdeal.main_arg5)
local notation "y6" => m ((c.tc : Thread Cert.ReferenceIdeal.nD Cert.ReferenceIdeal.τ).loc Cert.ReferenceIdeal.main_arg6)

/-- The reference's composed term, folded into the glue functions; its three row-wise stages still in the host's
    spelling. -/
theorem folded : Cert.ReferenceIdeal.ValueP.res_main_v103 (F := Ideal) m c =
    pool
      (addf
        (agg16
          (Host.dotGeneral (φ₁ := .f32) (φ₂ := .f32) Cert.ReferenceIdeal.dot_S100000x128_S128x16_S100000x16_1_0_0_1_n_n none
            (maximumf
              (addf
                (agg128 (Host.dotGeneral (φ₁ := .f32) (φ₂ := .f32) Cert.ReferenceIdeal.dot_S100000x64_S64x128_S100000x128_1_0_0_1_n_n none y0 y3)
                  (srcOf y1) (dstOf y1) (col (normOf (srcOf y1) (dstOf y1))))
                (broadcastInDim Cert.ReferenceIdeal.S100000x128 ![0, 1] Cert.ReferenceIdeal.Facts₀.bcast_S1x128_S100000x128_0_1
                  (broadcastInDim Cert.ReferenceIdeal.S1x128 ![1] Cert.ReferenceIdeal.Facts₀.bcast_S128_S1x128_1 y4)))
              (broadcastInDim Cert.ReferenceIdeal.S100000x128 ![] Cert.ReferenceIdeal.Facts₀.bcast_S_S100000x128
                (constant (F := Ideal) Cert.ReferenceIdeal.S_ .f32 0x00000000#32)))
            y5)
          (srcOf y1) (dstOf y1) (col (normOf (srcOf y1) (dstOf y1))))
        (broadcastInDim Cert.ReferenceIdeal.S100000x16 ![0, 1] Cert.ReferenceIdeal.Facts₀.bcast_S1x16_S100000x16_0_1
          (broadcastInDim Cert.ReferenceIdeal.S1x16 ![1] Cert.ReferenceIdeal.Facts₀.bcast_S16_S1x16_1 y6)))
      y2 := by
  rfl

/-- The reference's result is the network function of the seven arguments. -/
theorem value : Cert.ReferenceIdeal.ValueP.res_main_v103 (F := Ideal) m c = net y0 y1 y2 y3 y4 y5 y6 := by
  rw [folded,
    dotGeneral_eq_mm (n := 100000) (k := 64) (d := 128) Cert.ReferenceIdeal.dot_S100000x64_S64x128_S100000x128_1_0_0_1_n_n rfl rfl rfl rfl rfl rfl,
    addf_hostBias_eq_addRow (n := 100000) (k := 128) Cert.ReferenceIdeal.Facts₀.bcast_S128_S1x128_1 Cert.ReferenceIdeal.Facts₀.bcast_S1x128_S100000x128_0_1 Cert.KernelIdeal.Facts₀.shapeCasts_S128_S1x128,
    maximumf_hostZero_eq_relu (n := 100000) (k := 128),
    dotGeneral_eq_mm (n := 100000) (k := 128) (d := 16) Cert.ReferenceIdeal.dot_S100000x128_S128x16_S100000x16_1_0_0_1_n_n rfl rfl rfl rfl rfl rfl,
    addf_hostBias_eq_addRow (n := 100000) (k := 16) Cert.ReferenceIdeal.Facts₀.bcast_S16_S1x16_1 Cert.ReferenceIdeal.Facts₀.bcast_S1x16_S100000x16_0_1 Cert.KernelIdeal.Facts₀.shapeCasts_S16_S1x16]
  rfl

end Cert.ReferenceIdeal.RefValue

end
-- ==== Proof.lean ====
/-
  A two-layer graph convolution with mean pooling and a log-softmax, as four kernels among host operations, against the
  same network written with whole-array host operations.

  Both programs compute, from node features x [100000, 64], an edge list, a graph id per node, and two weight matrices
  with their bias vectors:  log_softmax( mean over each graph of  A (relu (A (x W1) + b1) W2) + b2 ),  where A is the
  degree-normalised aggregation over the edges with self loops added.  The kernel program does the two products and the
  two bias additions (the first with the floor at zero) in kernels that walk the node matrix in 20 blocks of 5000 rows,
  and everything else (the edge weights, the two aggregations, the pooling, the log-softmax) with the very host
  operations the reference uses; it computes the edge weights once where the reference computes them per layer.

  On the extended reals a change of float format is the identity, a kernel's product into a zero accumulator and the
  host's contraction are the same sum over the inner index, and a bias row spread over the rows and added is the same
  function however it is spelt.  Each of these row-wise stages on a block of rows is the same rows of the stage on the
  whole matrix, and the blocks tile the rows, so each kernel leaves the stage of the whole arrays.  No sum is reordered
  and nothing is distributed or cancelled, so the precondition is not used and the equality holds at the infinities.

  The three frames: the two kernel programs' are the generated frames; the reference's is its run with the result
  dropped.  The idealized program is the kernel program's own text read on the extended reals: nothing to preserve.
-/
import proofs.«154275_j65085934404070_1_alg».proof.Defs
import proofs.«154275_j65085934404070_1_alg».proof.Proof.Gen.Kernel
import proofs.«154275_j65085934404070_1_alg».proof.Proof.Gen.Kernel.Skeleton
import proofs.«154275_j65085934404070_1_alg».proof.Proof.Gen.Kernel.Launch
import proofs.«154275_j65085934404070_1_alg».proof.Proof.Gen.Kernel.Points
import proofs.«154275_j65085934404070_1_alg».proof.Proof.Gen.Kernel.Frame
import proofs.«154275_j65085934404070_1_alg».proof.Proof.Gen.KernelIdeal
import proofs.«154275_j65085934404070_1_alg».proof.Proof.Gen.KernelIdeal.Skeleton
import proofs.«154275_j65085934404070_1_alg».proof.Proof.Gen.KernelIdeal.Launch
import proofs.«154275_j65085934404070_1_alg».proof.Proof.Gen.KernelIdeal.Points
import proofs.«154275_j65085934404070_1_alg».proof.Proof.Gen.KernelIdeal.Frame
import proofs.«154275_j65085934404070_1_alg».proof.Proof.Gen.ReferenceIdeal
import proofs.«154275_j65085934404070_1_alg».proof.Proof.Gen.Pre_finite_inputs
import proofs.«154275_j65085934404070_1_alg».proof.Proof.KernelRun
import proofs.«154275_j65085934404070_1_alg».proof.Proof.KernelValue
import proofs.«154275_j65085934404070_1_alg».proof.Proof.ReferenceRun
import proofs.«154275_j65085934404070_1_alg».proof.Proof.ReferenceValue
import Idealize.ShloMosaic.Adequacy
import Idealize.ShloMosaic.Init

noncomputable section

namespace Cert.Proof

open Idealize.ShloMosaic Idealize.SL.Sem

/-- The kernel program terminates without a fault and leaves its arguments as launched. -/
theorem frame_kernel : Cert.frame_Kernel (hKernel := Cert.Kernel.Gen.facts) (hPre_finite_inputs := Cert.Pre_finite_inputs.Gen.facts) :=
  fun m ρ _ => Cert.Kernel.Gen.frame m ρ

/-- So does the same program read on the extended reals. -/
theorem frame_kernelIdeal : Cert.frame_KernelIdeal (hKernelIdeal := Cert.KernelIdeal.Gen.facts) (hPre_finite_inputs := Cert.Pre_finite_inputs.Gen.facts) :=
  fun m ρ _ => Cert.KernelIdeal.Gen.frame m ρ

/-- The reference's frame is its run with the result dropped. -/
theorem frame_reference : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2)
    (Cert.ReferenceIdeal.ValueP.run (F := Ideal) m ρ)

/-- From memories that agree on the seven arguments both programs end with the network function of those arguments in
    their result buffer: the kernel program by the fold through its segments, the reference by its composed term. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.Gcn.net
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6)), ?_, ?_⟩
  · exact (θ_run Cert.KernelIdeal.defs _ _).mono
      (fun r h c => ⟨(h c).1.trans (Cert.KernelIdeal.Chain.result m ρ c), (h c).2⟩)
      (Cert.KernelIdeal.NamedRun.run_named (F := Ideal) m ρ)
  · refine (θ_run Cert.ReferenceIdeal.defs _ _).mono (fun r h c => ⟨(h c).1.trans ?_, (h c).2⟩)
      (Cert.ReferenceIdeal.ValueP.run (F := Ideal) m' ρ')
    obtain ⟨h0, h1, h2, h3, h4, h5, h6⟩ := hagree c
    rw [Cert.ReferenceIdeal.RefValue.value, h0, h1, h2, h3, h4, h5, h6]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
